-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000 : Shape := ⟨1, ![640000]⟩
abbrev S4096 : Shape := ⟨1, ![4096]⟩
abbrev S100000x200 : Shape := ⟨2, ![100000, 200]⟩
abbrev S400x200 : Shape := ⟨2, ![400, 200]⟩
abbrev S200x200 : Shape := ⟨2, ![200, 200]⟩
abbrev S1x200 : Shape := ⟨2, ![1, 200]⟩
abbrev S200 : Shape := ⟨1, ![200]⟩
abbrev S_ : Shape := ⟨0, ![]⟩

class Facts : Prop where
  bcast_S_S640000 : S_.BroadcastsInDim S640000 (![] : Fin 0 → Fin S640000.rank)
  reducesTo_S640000_S_d0 : S640000.ReducesTo [0] S_
  h_S_ : 0 < S_.numel
  bcast_S_S100000x200 : S_.BroadcastsInDim S100000x200 (![] : Fin 0 → Fin S100000x200.rank)
  reducesTo_S100000x200_S_d0_1 : S100000x200.ReducesTo [0, 1] S_
  bcast_S_S400x200 : S_.BroadcastsInDim S400x200 (![] : Fin 0 → Fin S400x200.rank)
  reducesTo_S400x200_S_d0_1 : S400x200.ReducesTo [0, 1] S_
  bcast_S_S200x200 : S_.BroadcastsInDim S200x200 (![] : Fin 0 → Fin S200x200.rank)
  reducesTo_S200x200_S_d0_1 : S200x200.ReducesTo [0, 1] S_
  bcast_S_S1x200 : S_.BroadcastsInDim S1x200 (![] : Fin 0 → Fin S1x200.rank)
  reducesTo_S1x200_S_d0_1 : S1x200.ReducesTo [0, 1] S_
  bcast_S_S200 : S_.BroadcastsInDim S200 (![] : Fin 0 → Fin S200.rank)
  reducesTo_S200_S_d0 : S200.ReducesTo [0] S_

variable [Facts]

def fn_part4 {F : FTy → Type} [FloatOps F] (main_arg20 : FVec F S200 .f32) (main_v63 : IVec S_ 1) (main_v67 : IVec S_ 1) : IVec S_ 1 :=
  let main_v68 : IVec S_ 1 := andi main_v63 main_v67
  let main_v69 : FVec F S200 .f32 := Host.absf main_arg20
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  main_v73

def fn_part3 {F : FTy → Type} [FloatOps F] (main_arg17 : FVec F S200x200 .f32) (main_arg18 : FVec F S200x200 .f32) (main_arg19 : FVec F S1x200 .f32) (main_arg20 : FVec F S200 .f32) (main_v48 : IVec S_ 1) (main_v49 : FVec F S200x200 .f32) (main_v50 : FVec F S200x200 .f32) : IVec S_ 1 :=
  let main_v51 : IVec S200x200 1 := cmpf .olt main_v49 main_v50
  let main_c_19 : IVec S_ 1 := constantI S_ 1 1#1
  let main_v52 : IVec S_ 1 := (fun x v => Host.reduce IntOp.andi x v reducesTo_S200x200_S_d0_1 h_S_) main_v51 main_c_19
  let main_v53 : IVec S_ 1 := andi main_v48 main_v52
  let main_v54 : FVec F S200x200 .f32 := Host.absf main_arg17
  let main_cst_20 : FVec F S_ .f32 := constant S_ .f32 0x7F800000#32
  let main_v55 : FVec F S200x200 .f32 := broadcastInDim S200x200 ![] bcast_S_S200x200 main_cst_20
  let main_v56 : IVec S200x200 1 := cmpf .olt main_v54 main_v55
  let main_c_21 : IVec S_ 1 := constantI S_ 1 1#1
  let main_v57 : IVec S_ 1 := (fun x v => Host.reduce IntOp.andi x v reducesTo_S200x200_S_d0_1 h_S_) main_v56 main_c_21
  let main_v58 : IVec S_ 1 := andi main_v53 main_v57
  let main_v59 : FVec F S200x200 .f32 := Host.absf main_arg18
  let main_cst_22 : FVec F S_ .f32 := constant S_ .f32 0x7F800000#32
  let main_v60 : FVec F S200x200 .f32 := broadcastInDim S200x200 ![] bcast_S_S200x200 main_cst_22
  let main_v61 : IVec S200x200 1 := cmpf .olt main_v59 main_v60
  let main_c_23 : IVec S_ 1 := constantI S_ 1 1#1
  let main_v62 : IVec S_ 1 := (fun x v => Host.reduce IntOp.andi x v reducesTo_S200x200_S_d0_1 h_S_) main_v61 main_c_23
  let main_v63 : IVec S_ 1 := andi main_v58 main_v62
  let main_v64 : FVec F S1x200 .f32 := Host.absf main_arg19
  let main_cst_24 : FVec F S_ .f32 := constant S_ .f32 0x7F800000#32
  let main_v65 : FVec F S1x200 .f32 := broadcastInDim S1x200 ![] bcast_S_S1x200 main_cst_24
  let main_v66 : IVec S1x200 1 := cmpf .olt main_v64 main_v65
  let main_c_25 : IVec S_ 1 := constantI S_ 1 1#1
  let main_v67 : IVec S_ 1 := (fun x v => Host.reduce IntOp.andi x v reducesTo_S1x200_S_d0_1 h_S_) main_v66 main_c_25
  fn_part4 (F := F) main_arg20 main_v63 main_v67

def fn_part2 {F : FTy → Type} [FloatOps F] (main_arg13 : FVec F S1x200 .f32) (main_arg14 : FVec F S200 .f32) (main_arg15 : FVec F S200x200 .f32) (main_arg16 : FVec F S200x200 .f32) (main_arg17 : FVec F S200x200 .f32) (main_arg18 : FVec F S200x200 .f32) (main_arg19 : FVec F S1x200 .f32) (main_arg20 : FVec F S200 .f32) (main_v33 : IVec S_ 1) : IVec S_ 1 :=
  let main_v34 : FVec F S1x200 .f32 := Host.absf main_arg13
  let main_cst_12 : FVec F S_ .f32 := constant S_ .f32 0x7F800000#32
  let main_v35 : FVec F S1x200 .f32 := broadcastInDim S1x200 ![] bcast_S_S1x200 main_cst_12
  let main_v36 : IVec S1x200 1 := cmpf .olt main_v34 main_v35
  let main_c_13 : IVec S_ 1 := constantI S_ 1 1#1
  let main_v37 : IVec S_ 1 := (fun x v => Host.reduce IntOp.andi x v reducesTo_S1x200_S_d0_1 h_S_) main_v36 main_c_13
  let main_v38 : IVec S_ 1 := andi main_v33 main_v37
  let main_v39 : FVec F S200 .f32 := Host.absf main_arg14
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S200x200 .f32 := Host.absf main_arg15
  let main_cst_16 : FVec F S_ .f32 := constant S_ .f32 0x7F800000#32
  let main_v45 : FVec F S200x200 .f32 := broadcastInDim S200x200 ![] bcast_S_S200x200 main_cst_16
  let main_v46 : IVec S200x200 1 := cmpf .olt main_v44 main_v45
  let main_c_17 : IVec S_ 1 := constantI S_ 1 1#1
  let main_v47 : IVec S_ 1 := (fun x v => Host.reduce IntOp.andi x v reducesTo_S200x200_S_d0_1 h_S_) main_v46 main_c_17
  let main_v48 : IVec S_ 1 := andi main_v43 main_v47
  let main_v49 : FVec F S200x200 .f32 := Host.absf main_arg16
  let main_cst_18 : FVec F S_ .f32 := constant S_ .f32 0x7F800000#32
  let main_v50 : FVec F S200x200 .f32 := broadcastInDim S200x200 ![] bcast_S_S200x200 main_cst_18
  fn_part3 (F := F) main_arg17 main_arg18 main_arg19 main_arg20 main_v48 main_v49 main_v50

def fn_part1 {F : FTy → Type} [FloatOps F] (main_arg10 : FVec F S200x200 .f32) (main_arg11 : FVec F S200x200 .f32) (main_arg12 : FVec F S200x200 .f32) (main_arg13 : FVec F S1x200 .f32) (main_arg14 : FVec F S200 .f32) (main_arg15 : FVec F S200x200 .f32) (main_arg16 : FVec F S200x200 .f32) (main_arg17 : FVec F S200x200 .f32) (main_arg18 : FVec F S200x200 .f32) (main_arg19 : FVec F S1x200 .f32) (main_arg20 : FVec F S200 .f32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200x200 .f32 := Host.absf main_arg10
  let main_cst_6 : FVec F S_ .f32 := constant S_ .f32 0x7F800000#32
  let main_v20 : FVec F S200x200 .f32 := broadcastInDim S200x200 ![] bcast_S_S200x200 main_cst_6
  let main_v21 : IVec S200x200 1 := cmpf .olt main_v19 main_v20
  let main_c_7 : IVec S_ 1 := constantI S_ 1 1#1
  let main_v22 : IVec S_ 1 := (fun x v => Host.reduce IntOp.andi x v reducesTo_S200x200_S_d0_1 h_S_) main_v21 main_c_7
  let main_v23 : IVec S_ 1 := andi main_v18 main_v22
  let main_v24 : FVec F S200x200 .f32 := Host.absf main_arg11
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200x200 .f32 := Host.absf main_arg12
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg13 main_arg14 main_arg15 main_arg16 main_arg17 main_arg18 main_arg19 main_arg20 main_v33

def fn {F : FTy → Type} [FloatOps F] (main_arg0 : IVec S640000 32) (main_arg1 : IVec S640000 32) (main_arg2 : IVec S640000 32) (main_arg3 : FVec F S640000 .f32) (main_arg4 : IVec S4096 32) (main_arg5 : IVec S4096 32) (main_arg6 : IVec S4096 32) (main_arg7 : FVec F S100000x200 .f32) (main_arg8 : FVec F S400x200 .f32) (main_arg9 : FVec F S200x200 .f32) (main_arg10 : FVec F S200x200 .f32) (main_arg11 : FVec F S200x200 .f32) (main_arg12 : FVec F S200x200 .f32) (main_arg13 : FVec F S1x200 .f32) (main_arg14 : FVec F S200 .f32) (main_arg15 : FVec F S200x200 .f32) (main_arg16 : FVec F S200x200 .f32) (main_arg17 : FVec F S200x200 .f32) (main_arg18 : FVec F S200x200 .f32) (main_arg19 : FVec F S1x200 .f32) (main_arg20 : FVec F S200 .f32) : IVec S_ 1 :=
  let main_v0 : FVec F S640000 .f32 := Host.absf main_arg3
  let main_cst : FVec F S_ .f32 := constant S_ .f32 0x7F800000#32
  let main_v1 : FVec F S640000 .f32 := broadcastInDim S640000 ![] bcast_S_S640000 main_cst
  let main_v2 : IVec S640000 1 := cmpf .olt main_v0 main_v1
  let main_c : IVec S_ 1 := constantI S_ 1 1#1
  let main_v3 : IVec S_ 1 := (fun x v => Host.reduce IntOp.andi x v reducesTo_S640000_S_d0 h_S_) main_v2 main_c
  let main_v4 : FVec F S100000x200 .f32 := Host.absf main_arg7
  let main_cst_0 : FVec F S_ .f32 := constant S_ .f32 0x7F800000#32
  let main_v5 : FVec F S100000x200 .f32 := broadcastInDim S100000x200 ![] bcast_S_S100000x200 main_cst_0
  let main_v6 : IVec S100000x200 1 := cmpf .olt main_v4 main_v5
  let main_c_1 : IVec S_ 1 := constantI S_ 1 1#1
  let main_v7 : IVec S_ 1 := (fun x v => Host.reduce IntOp.andi x v reducesTo_S100000x200_S_d0_1 h_S_) main_v6 main_c_1
  let main_v8 : IVec S_ 1 := andi main_v3 main_v7
  let main_v9 : FVec F S400x200 .f32 := Host.absf main_arg8
  let main_cst_2 : FVec F S_ .f32 := constant S_ .f32 0x7F800000#32
  let main_v10 : FVec F S400x200 .f32 := broadcastInDim S400x200 ![] bcast_S_S400x200 main_cst_2
  let main_v11 : IVec S400x200 1 := cmpf .olt main_v9 main_v10
  let main_c_3 : IVec S_ 1 := constantI S_ 1 1#1
  let main_v12 : IVec S_ 1 := (fun x v => Host.reduce IntOp.andi x v reducesTo_S400x200_S_d0_1 h_S_) main_v11 main_c_3
  let main_v13 : IVec S_ 1 := andi main_v8 main_v12
  let main_v14 : FVec F S200x200 .f32 := Host.absf main_arg9
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg10 main_arg11 main_arg12 main_arg13 main_arg14 main_arg15 main_arg16 main_arg17 main_arg18 main_arg19 main_arg20 main_v13 main_v16
-- ==== Kernel.lean ====
abbrev S640000 : Shape := ⟨1, ![640000]⟩
abbrev S4096 : Shape := ⟨1, ![4096]⟩
abbrev S100000x200 : Shape := ⟨2, ![100000, 200]⟩
abbrev S400x200 : Shape := ⟨2, ![400, 200]⟩
abbrev S200x200 : Shape := ⟨2, ![200, 200]⟩
abbrev S1x200 : Shape := ⟨2, ![1, 200]⟩
abbrev S200 : Shape := ⟨1, ![200]⟩
abbrev S_ : Shape := ⟨0, ![]⟩
abbrev S640000x1 : Shape := ⟨2, ![640000, 1]⟩
abbrev S640000x200 : Shape := ⟨2, ![640000, 200]⟩
abbrev S4000x200 : Shape := ⟨2, ![4000, 200]⟩
abbrev S4096x1 : Shape := ⟨2, ![4096, 1]⟩
abbrev S4096x200 : Shape := ⟨2, ![4096, 200]⟩

abbrev nBuf : Space → Nat
  | .hbm => 108
  | .vmem => 30
  | .smem => 0
  | _ => 0

abbrev bufTy : (tb : Table) → Fin (tcTables nBuf tb) → BufTy
  | .hbm, ⟨0, _⟩ => ⟨S640000, .i32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S100000x200, .f32⟩
  | .hbm, ⟨8, _⟩ => ⟨S400x200, .f32⟩
  | .hbm, ⟨9, _⟩ => ⟨S200x200, .f32⟩
  | .hbm, ⟨10, _⟩ => ⟨S200x200, .f32⟩
  | .hbm, ⟨11, _⟩ => ⟨S200x200, .f32⟩
  | .hbm, ⟨12, _⟩ => ⟨S200x200, .f32⟩
  | .hbm, ⟨13, _⟩ => ⟨S1x200, .f32⟩
  | .hbm, ⟨14, _⟩ => ⟨S200, .f32⟩
  | .hbm, ⟨15, _⟩ => ⟨S200x200, .f32⟩
  | .hbm, ⟨16, _⟩ => ⟨S200x200, .f32⟩
  | .hbm, ⟨17, _⟩ => ⟨S200x200, .f32⟩
  | .hbm, ⟨18, _⟩ => ⟨S200x200, .f32⟩
  | .hbm, ⟨19, _⟩ => ⟨S1x200, .f32⟩
  | .hbm, ⟨20, _⟩ => ⟨S200, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x200, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x200, .f32⟩
  | .hbm, ⟨39, _⟩ => ⟨S640000x200, .f32⟩
  | .hbm, ⟨40, _⟩ => ⟨S640000x1, .f32⟩
  | .hbm, ⟨41, _⟩ => ⟨S640000x200, .f32⟩
  | .hbm, ⟨42, _⟩ => ⟨S640000x200, .f32⟩
  | .hbm, ⟨43, _⟩ => ⟨S640000x200, .f32⟩
  | .hbm, ⟨44, _⟩ => ⟨S_, .f32⟩
  | .hbm, ⟨45, _⟩ => ⟨S100000x200, .f32⟩
  | .hbm, ⟨46, _⟩ => ⟨S640000x1, .i32⟩
  | .hbm, ⟨47, _⟩ => ⟨S100000x200, .f32⟩
  | .hbm, ⟨48, _⟩ => ⟨S1x200, .f32⟩
  | .hbm, ⟨49, _⟩ => ⟨S100000x200, .f32⟩
  | .hbm, ⟨50, _⟩ => ⟨S400x200, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x200, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x200, .f32⟩
  | .hbm, ⟨69, _⟩ => ⟨S640000x200, .f32⟩
  | .hbm, ⟨70, _⟩ => ⟨S640000x1, .f32⟩
  | .hbm, ⟨71, _⟩ => ⟨S640000x200, .f32⟩
  | .hbm, ⟨72, _⟩ => ⟨S640000x200, .f32⟩
  | .hbm, ⟨73, _⟩ => ⟨S640000x200, .f32⟩
  | .hbm, ⟨74, _⟩ => ⟨S_, .f32⟩
  | .hbm, ⟨75, _⟩ => ⟨S100000x200, .f32⟩
  | .hbm, ⟨76, _⟩ => ⟨S640000x1, .i32⟩
  | .hbm, ⟨77, _⟩ => ⟨S100000x200, .f32⟩
  | .hbm, ⟨78, _⟩ => ⟨S1x200, .f32⟩
  | .hbm, ⟨79, _⟩ => ⟨S100000x200, .f32⟩
  | .hbm, ⟨80, _⟩ => ⟨S400x200, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S4096x200, .f32⟩
  | .hbm, ⟨90, _⟩ => ⟨S_, .i32⟩
  | .hbm, ⟨91, _⟩ => ⟨S4096, .i32⟩
  | .hbm, ⟨92, _⟩ => ⟨S4096, .i1⟩
  | .hbm, ⟨93, _⟩ => ⟨S_, .i32⟩
  | .hbm, ⟨94, _⟩ => ⟨S4096, .i32⟩
  | .hbm, ⟨95, _⟩ => ⟨S4096, .i32⟩
  | .hbm, ⟨96, _⟩ => ⟨S4096, .i32⟩
  | .hbm, ⟨97, _⟩ => ⟨S4096x1, .i32⟩
  | .hbm, ⟨98, _⟩ => ⟨S4096x200, .f32⟩
  | .hbm, ⟨99, _⟩ => ⟨S_, .i32⟩
  | .hbm, ⟨100, _⟩ => ⟨S4096, .i32⟩
  | .hbm, ⟨101, _⟩ => ⟨S4096, .i1⟩
  | .hbm, ⟨102, _⟩ => ⟨S_, .i32⟩
  | .hbm, ⟨103, _⟩ => ⟨S4096, .i32⟩
  | .hbm, ⟨104, _⟩ => ⟨S4096, .i32⟩
  | .hbm, ⟨105, _⟩ => ⟨S4096, .i32⟩
  | .hbm, ⟨106, _⟩ => ⟨S4096x1, .i32⟩
  | .hbm, ⟨107, _⟩ => ⟨S4096x200, .f32⟩
  | .local _ .vmem, ⟨0, _⟩ => ⟨S4000x200, .f32⟩
  | .local _ .vmem, ⟨1, _⟩ => ⟨S4000x200, .f32⟩
  | .local _ .vmem, ⟨2, _⟩ => ⟨S200x200, .f32⟩
  | .local _ .vmem, ⟨3, _⟩ => ⟨S200x200, .f32⟩
  | .local _ .vmem, ⟨4, _⟩ => ⟨S4000x200, .f32⟩
  | .local _ .vmem, ⟨5, _⟩ => ⟨S4000x200, .f32⟩
  | .local _ .vmem, ⟨6, _⟩ => ⟨S4000x200, .f32⟩
  | .local _ .vmem, ⟨7, _⟩ => ⟨S4000x200, .f32⟩
  | .local _ .vmem, ⟨8, _⟩ => ⟨S4000x200, .f32⟩
  | .local _ .vmem, ⟨9, _⟩ => ⟨S4000x200, .f32⟩
  | .local _ .vmem, ⟨10, _⟩ => ⟨S1x200, .f32⟩
  | .local _ .vmem, ⟨11, _⟩ => ⟨S200x200, .f32⟩
  | .local _ .vmem, ⟨12, _⟩ => ⟨S1x200, .f32⟩
  | .local _ .vmem, ⟨13, _⟩ => ⟨S4000x200, .f32⟩
  | .local _ .vmem, ⟨14, _⟩ => ⟨S4000x200, .f32⟩
  | .local _ .vmem, ⟨15, _⟩ => ⟨S4000x200, .f32⟩
  | .local _ .vmem, ⟨16, _⟩ => ⟨S4000x200, .f32⟩
  | .local _ .vmem, ⟨17, _⟩ => ⟨S200x200, .f32⟩
  | .local _ .vmem, ⟨18, _⟩ => ⟨S200x200, .f32⟩
  | .local _ .vmem, ⟨19, _⟩ => ⟨S4000x200, .f32⟩
  | .local _ .vmem, ⟨20, _⟩ => ⟨S4000x200, .f32⟩
  | .local _ .vmem, ⟨21, _⟩ => ⟨S4000x200, .f32⟩
  | .local _ .vmem, ⟨22, _⟩ => ⟨S4000x200, .f32⟩
  | .local _ .vmem, ⟨23, _⟩ => ⟨S4000x200, .f32⟩
  | .local _ .vmem, ⟨24, _⟩ => ⟨S4000x200, .f32⟩
  | .local _ .vmem, ⟨25, _⟩ => ⟨S1x200, .f32⟩
  | .local _ .vmem, ⟨26, _⟩ => ⟨S200x200, .f32⟩
  | .local _ .vmem, ⟨27, _⟩ => ⟨S1x200, .f32⟩
  | .local _ .vmem, ⟨28, _⟩ => ⟨S4000x200, .f32⟩
  | .local _ .vmem, ⟨29, _⟩ => ⟨S4000x200, .f32⟩
  | _, _ => ⟨S640000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_8 : Ref sig .tc := ⟨.hbm, 81, rfl⟩
abbrev main_v50 : Ref sig .tc := ⟨.hbm, 82, rfl⟩
abbrev main_v51 : Ref sig .tc := ⟨.hbm, 83, rfl⟩
abbrev main_c_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_c_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_12 : Ref sig .tc := ⟨.hbm, 99, rfl⟩
abbrev main_v64 : Ref sig .tc := ⟨.hbm, 100, rfl⟩
abbrev main_v65 : Ref sig .tc := ⟨.hbm, 101, rfl⟩
abbrev main_c_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![160], ![false]⟩

def k0_cond1 (i : grid0.Coords) : BitVec 1 :=
  let arg0 : BitVec 32 := BitVec.ofNat 32 (i 0).val
  let c80_i32 : BitVec 32 := 80#32
  let v0 : BitVec 1 := Scalar.cmpi .slt arg0 c80_i32
  let v4 : BitVec 32 := Scalar.extui v0
  let c0_i32 : BitVec 32 := 0#32
  let v5 : BitVec 1 := Scalar.cmpi .ne v4 c0_i32
  v5

def k0_cond2 (i : grid0.Coords) : BitVec 1 :=
  let arg0 : BitVec 32 := BitVec.ofNat 32 (i 0).val
  let c80_i32 : BitVec 32 := 80#32
  let v0 : BitVec 1 := Scalar.cmpi .slt arg0 c80_i32
  let v_true : BitVec 1 := 1#1
  let v6 : BitVec 1 := Scalar.xori v0 v_true
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x200 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![160], ![false]⟩

def k2_cond1 (i : grid2.Coords) : BitVec 1 :=
  let arg0 : BitVec 32 := BitVec.ofNat 32 (i 0).val
  let c80_i32 : BitVec 32 := 80#32
  let v0 : BitVec 1 := Scalar.cmpi .slt arg0 c80_i32
  let v4 : BitVec 32 := Scalar.extui v0
  let c0_i32 : BitVec 32 := 0#32
  let v5 : BitVec 1 := Scalar.cmpi .ne v4 c0_i32
  v5

def k2_cond2 (i : grid2.Coords) : BitVec 1 :=
  let arg0 : BitVec 32 := BitVec.ofNat 32 (i 0).val
  let c80_i32 : BitVec 32 := 80#32
  let v0 : BitVec 1 := Scalar.cmpi .slt arg0 c80_i32
  let v_true : BitVec 1 := 1#1
  let v6 : BitVec 1 := Scalar.xori v0 v_true
  let v7 : BitVec 32 := Scalar.extui v6
  let c0_i32_1 : BitVec 32 := 0#32
  let v8 : BitVec 1 := Scalar.cmpi .ne v7 c0_i32_1
  v8

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S200x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S200x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S200x200 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x200 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x200 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x200_0_1 : S640000x1.BroadcastsInDim S640000x200 (![0, 1] : Fin 2 → Fin S640000x200.rank)
  inb_S4000x200_S4000x200_0_0 : ∀ a, (![0, 0] : Fin 2 → Nat) a + S4000x200.size a ≤ S4000x200.size a
  h_S4000x200 : 0 < S4000x200.numel
  shapeCasts_S4000x200_S4000x200 : S4000x200.ShapeCasts S4000x200
  bitsLt_bf16_f32 : FTy.bits .bf16 < FTy.bits .f32
  inb_S200x200_S200x200_0_0 : ∀ a, (![0, 0] : Fin 2 → Nat) a + S200x200.size a ≤ S200x200.size a
  h_S200x200 : 0 < S200x200.numel
  bcast_S_S100000x200 : S_.BroadcastsInDim S100000x200 (![] : Fin 0 → Fin S100000x200.rank)
  shapeCasts_S200_S1x200 : S200.ShapeCasts S1x200
  inb_S1x200_S1x200_0_0 : ∀ a, (![0, 0] : Fin 2 → Nat) a + S1x200.size a ≤ S1x200.size a
  h_S1x200 : 0 < S1x200.numel
  broadcasts_S1x200_S4000x200 : S1x200.Broadcasts S4000x200
  shapeCasts_S1x200_S1x200 : S1x200.ShapeCasts S1x200
  bcast_S_S4096 : S_.BroadcastsInDim S4096 (![] : Fin 0 → Fin S4096.rank)
  bcast_S4096_S4096x1_0 : S4096.BroadcastsInDim S4096x1 (![0] : Fin 1 → Fin S4096x1.rank)
  gather_S100000x200_S640000x1_S640000x200_1_0_n_n_0_1_1200_wf : GatherDims.WF S100000x200 S640000x1 S640000x200 [1] [0] [] [0] [] 1 ![1, 200]
  gather_S400x200_S640000x1_S640000x200_1_0_n_n_0_1_1200_wf : GatherDims.WF S400x200 S640000x1 S640000x200 [1] [0] [] [0] [] 1 ![1, 200]
  dot_S4000x200_S200x200_S4000x200_1_0_0_1_n_n_wf : DotDims.WF S4000x200 S200x200 S4000x200 [1] [0] [0] [1] [] []
  scatter_S100000x200_S640000x1_S640000x200_1_0_0_1_wf : ScatterDims.WF S100000x200 S640000x1 S640000x200 [1] [0] [0] 1
  dot_S400x200_S200x200_S400x200_1_0_0_1_n_n_wf : DotDims.WF S400x200 S200x200 S400x200 [1] [0] [0] [1] [] []
  gather_S100000x200_S4096x1_S4096x200_1_0_n_n_0_1_1200_wf : GatherDims.WF S100000x200 S4096x1 S4096x200 [1] [0] [] [0] [] 1 ![1, 200]
  gather_S400x200_S4096x1_S4096x200_1_0_n_n_0_1_1200_wf : GatherDims.WF S400x200 S4096x1 S4096x200 [1] [0] [] [0] [] 1 ![1, 200]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x200.size a ≤ S640000x200.size a
  hwx0_0 : ∀ i : grid0.Coords, EltTy.bits .f32 = 32 ∨ (Rect.block (s := S640000x200) S4000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x200.size a ≤ S200x200.size a
  hwx0_1 : ∀ i : grid0.Coords, EltTy.bits .f32 = 32 ∨ (Rect.block (s := S200x200) S200x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x200.size a ≤ S200x200.size a
  hwx0_2 : ∀ i : grid0.Coords, EltTy.bits .f32 = 32 ∨ (Rect.block (s := S200x200) S200x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x200.size a ≤ S640000x200.size a
  hwx0_3 : ∀ i : grid0.Coords, EltTy.bits .f32 = 32 ∨ (Rect.block (s := S640000x200) S4000x200.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x200.size a ≤ S100000x200.size a
  hwx1_0 : ∀ i : grid1.Coords, EltTy.bits .f32 = 32 ∨ (Rect.block (s := S100000x200) S4000x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x200.size a ≤ S100000x200.size a
  hwx1_1 : ∀ i : grid1.Coords, EltTy.bits .f32 = 32 ∨ (Rect.block (s := S100000x200) S4000x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x200.size a ≤ S200x200.size a
  hwx1_3 : ∀ i : grid1.Coords, EltTy.bits .f32 = 32 ∨ (Rect.block (s := S200x200) S200x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x200.size a ≤ S100000x200.size a
  hwx1_5 : ∀ i : grid1.Coords, EltTy.bits .f32 = 32 ∨ (Rect.block (s := S100000x200) S4000x200.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x200.size a ≤ S640000x200.size a
  hwx2_0 : ∀ i : grid2.Coords, EltTy.bits .f32 = 32 ∨ (Rect.block (s := S640000x200) S4000x200.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S200x200.size a ≤ S200x200.size a
  hwx2_1 : ∀ i : grid2.Coords, EltTy.bits .f32 = 32 ∨ (Rect.block (s := S200x200) S200x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200x200.size a ≤ S200x200.size a
  hwx2_2 : ∀ i : grid2.Coords, EltTy.bits .f32 = 32 ∨ (Rect.block (s := S200x200) S200x200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x200.size a ≤ S640000x200.size a
  hwx2_3 : ∀ i : grid2.Coords, EltTy.bits .f32 = 32 ∨ (Rect.block (s := S640000x200) S4000x200.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x200.size a ≤ S100000x200.size a
  hwx3_0 : ∀ i : grid3.Coords, EltTy.bits .f32 = 32 ∨ (Rect.block (s := S100000x200) S4000x200.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x200.size a ≤ S100000x200.size a
  hwx3_1 : ∀ i : grid3.Coords, EltTy.bits .f32 = 32 ∨ (Rect.block (s := S100000x200) S4000x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x200.size a ≤ S1x200.size a
  hwx3_2 : ∀ i : grid3.Coords, EltTy.bits .f32 = 32 ∨ (Rect.block (s := S1x200) S1x200.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S200x200.size a ≤ S200x200.size a
  hwx3_3 : ∀ i : grid3.Coords, EltTy.bits .f32 = 32 ∨ (Rect.block (s := S200x200) S200x200.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x200.size a ≤ S1x200.size a
  hwx3_4 : ∀ i : grid3.Coords, EltTy.bits .f32 = 32 ∨ (Rect.block (s := S1x200) S1x200.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x200.size a ≤ S100000x200.size a
  hwx3_5 : ∀ i : grid3.Coords, EltTy.bits .f32 = 32 ∨ (Rect.block (s := S100000x200) S4000x200.size (cc3_transform_5 i) (hinb3_5 i)).WholeWords (EltTy.packing .f32)

variable [Facts₀]

def gather_S100000x200_S640000x1_S640000x200_1_0_n_n_0_1_1200 : GatherDims S100000x200 S640000x1 S640000x200 where
  offsetDims := [1]
  collapsedSliceDims := [0]
  operandBatchingDims := []
  startIndicesBatchingDims := []
  startIndexMap := [0]
  indexVectorDim := 1
  sliceSizes := ![1, 200]
  wf := gather_S100000x200_S640000x1_S640000x200_1_0_n_n_0_1_1200_wf
def gather_S400x200_S640000x1_S640000x200_1_0_n_n_0_1_1200 : GatherDims S400x200 S640000x1 S640000x200 where
  offsetDims := [1]
  collapsedSliceDims := [0]
  operandBatchingDims := []
  startIndicesBatchingDims := []
  startIndexMap := [0]
  indexVectorDim := 1
  sliceSizes := ![1, 200]
  wf := gather_S400x200_S640000x1_S640000x200_1_0_n_n_0_1_1200_wf
def dot_S4000x200_S200x200_S4000x200_1_0_0_1_n_n : DotDims S4000x200 S200x200 S4000x200 where
  lhsContracting := [1]
  rhsContracting := [0]
  lhsNonContracting := [0]
  rhsNonContracting := [1]
  lhsBatch := []
  rhsBatch := []
  wf := dot_S4000x200_S200x200_S4000x200_1_0_0_1_n_n_wf
def scatter_S100000x200_S640000x1_S640000x200_1_0_0_1 : ScatterDims S100000x200 S640000x1 S640000x200 where
  updateWindowDims := [1]
  insertedWindowDims := [0]
  scatterDimsToOperandDims := [0]
  indexVectorDim := 1
  wf := scatter_S100000x200_S640000x1_S640000x200_1_0_0_1_wf
def dot_S400x200_S200x200_S400x200_1_0_0_1_n_n : DotDims S400x200 S200x200 S400x200 where
  lhsContracting := [1]
  rhsContracting := [0]
  lhsNonContracting := [0]
  rhsNonContracting := [1]
  lhsBatch := []
  rhsBatch := []
  wf := dot_S400x200_S200x200_S400x200_1_0_0_1_n_n_wf
def gather_S100000x200_S4096x1_S4096x200_1_0_n_n_0_1_1200 : GatherDims S100000x200 S4096x1 S4096x200 where
  offsetDims := [1]
  collapsedSliceDims := [0]
  operandBatchingDims := []
  startIndicesBatchingDims := []
  startIndexMap := [0]
  indexVectorDim := 1
  sliceSizes := ![1, 200]
  wf := gather_S100000x200_S4096x1_S4096x200_1_0_n_n_0_1_1200_wf
def gather_S400x200_S4096x1_S4096x200_1_0_n_n_0_1_1200 : GatherDims S400x200 S4096x1 S4096x200 where
  offsetDims := [1]
  collapsedSliceDims := [0]
  operandBatchingDims := []
  startIndicesBatchingDims := []
  startIndexMap := [0]
  indexVectorDim := 1
  sliceSizes := ![1, 200]
  wf := gather_S400x200_S4096x1_S4096x200_1_0_n_n_0_1_1200_wf

abbrev win0_0 : Pipeline.Window sig grid0 :=
  Pipeline.Window.ofSpec (Memref.whole main_v17) S4000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S200x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S200x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_v21) S4000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S4000x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S200x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S4000x200.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S4000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S200x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S200x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S4000x200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond1 i == 1#1) && !(k2_cond2 i == 1#1) | ⟨_ + 4, h⟩ => absurd h (Nat.not_lt.2 (Nat.le_add_left _ _))

abbrev win3_0 : Pipeline.Window sig grid3 :=
  Pipeline.Window.ofSpec (Memref.whole main_v46) S4000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S4000x200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg19) S1x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S200x200.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x200.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S4000x200.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S640000 : Shape := ⟨1, ![640000]⟩
abbrev S4096 : Shape := ⟨1, ![4096]⟩
abbrev S100000x200 : Shape := ⟨2, ![100000, 200]⟩
abbrev S400x200 : Shape := ⟨2, ![400, 200]⟩
abbrev S200x200 : Shape := ⟨2, ![200, 200]⟩
abbrev S1x200 : Shape := ⟨2, ![1, 200]⟩
abbrev S200 : Shape := ⟨1, ![200]⟩
abbrev S_ : Shape := ⟨0, ![]⟩
abbrev S640000x1 : Shape := ⟨2, ![640000, 1]⟩
abbrev S640000x200 : Shape := ⟨2, ![640000, 200]⟩
abbrev S320000x200 : Shape := ⟨2, ![320000, 200]⟩
abbrev S4096x1 : Shape := ⟨2, ![4096, 1]⟩
abbrev S4096x200 : Shape := ⟨2, ![4096, 200]⟩

abbrev nBuf : Space → Nat
  | .hbm => 140
  | .vmem => 0
  | .smem => 0
  | _ => 0

abbrev hbmTy0_0 (i : Nat) : BufTy := match i % 128 with
  | 0 => ⟨S640000, .i32⟩
  | 1 => ⟨S640000, .i32⟩
  | 2 => ⟨S640000, .i32⟩
  | 3 => ⟨S640000, .f32⟩
  | 4 => ⟨S4096, .i32⟩
  | 5 => ⟨S4096, .i32⟩
  | 6 => ⟨S4096, .i32⟩
  | 7 => ⟨S100000x200, .f32⟩
  | 8 => ⟨S400x200, .f32⟩
  | 9 => ⟨S200x200, .f32⟩
  | 10 => ⟨S200x200, .f32⟩
  | 11 => ⟨S200x200, .f32⟩
  | 12 => ⟨S200x200, .f32⟩
  | 13 => ⟨S1x200, .f32⟩
  | 14 => ⟨S200, .f32⟩
  | 15 => ⟨S200x200, .f32⟩
  | 16 => ⟨S200x200, .f32⟩
  | 17 => ⟨S200x200, .f32⟩
  | 18 => ⟨S200x200, .f32⟩
  | 19 => ⟨S1x200, .f32⟩
  | 20 => ⟨S200, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x200, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x200, .f32⟩
  | 39 => ⟨S640000x200, .f32⟩
  | 40 => ⟨S320000x200, .f32⟩
  | 41 => ⟨S320000x200, .f32⟩
  | 42 => ⟨S320000x200, .f32⟩
  | 43 => ⟨S320000x200, .f32⟩
  | 44 => ⟨S640000x200, .f32⟩
  | 45 => ⟨S640000x1, .f32⟩
  | 46 => ⟨S640000x200, .f32⟩
  | 47 => ⟨S640000x200, .f32⟩
  | 48 => ⟨S_, .f32⟩
  | 49 => ⟨S100000x200, .f32⟩
  | 50 => ⟨S640000x1, .i32⟩
  | 51 => ⟨S100000x200, .f32⟩
  | 52 => ⟨S100000x200, .f32⟩
  | 53 => ⟨S100000x200, .f32⟩
  | 54 => ⟨S100000x200, .f32⟩
  | 55 => ⟨S_, .f32⟩
  | 56 => ⟨S100000x200, .f32⟩
  | 57 => ⟨S100000x200, .f32⟩
  | 58 => ⟨S100000x200, .f32⟩
  | 59 => ⟨S1x200, .f32⟩
  | 60 => ⟨S100000x200, .f32⟩
  | 61 => ⟨S100000x200, .f32⟩
  | 62 => ⟨S_, .f32⟩
  | 63 => ⟨S100000x200, .f32⟩
  | 64 => ⟨S100000x200, .f32⟩
  | 65 => ⟨S100000x200, .f32⟩
  | 66 => ⟨S400x200, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x200, .f32⟩
  | 76 => ⟨S_, .i32⟩
  | 77 => ⟨S640000, .i32⟩
  | 78 => ⟨S640000, .i1⟩
  | 79 => ⟨S_, .i32⟩
  | 80 => ⟨S640000, .i32⟩
  | 81 => ⟨S640000, .i32⟩
  | 82 => ⟨S640000, .i32⟩
  | 83 => ⟨S640000x1, .i32⟩
  | 84 => ⟨S640000x200, .f32⟩
  | 85 => ⟨S640000x200, .f32⟩
  | 86 => ⟨S320000x200, .f32⟩
  | 87 => ⟨S320000x200, .f32⟩
  | 88 => ⟨S320000x200, .f32⟩
  | 89 => ⟨S320000x200, .f32⟩
  | 90 => ⟨S640000x200, .f32⟩
  | 91 => ⟨S640000x1, .f32⟩
  | 92 => ⟨S640000x200, .f32⟩
  | 93 => ⟨S640000x200, .f32⟩
  | 94 => ⟨S_, .f32⟩
  | 95 => ⟨S100000x200, .f32⟩
  | 96 => ⟨S640000x1, .i32⟩
  | 97 => ⟨S100000x200, .f32⟩
  | 98 => ⟨S100000x200, .f32⟩
  | 99 => ⟨S100000x200, .f32⟩
  | 100 => ⟨S100000x200, .f32⟩
  | 101 => ⟨S_, .f32⟩
  | 102 => ⟨S100000x200, .f32⟩
  | 103 => ⟨S100000x200, .f32⟩
  | 104 => ⟨S100000x200, .f32⟩
  | 105 => ⟨S1x200, .f32⟩
  | 106 => ⟨S100000x200, .f32⟩
  | 107 => ⟨S100000x200, .f32⟩
  | 108 => ⟨S_, .f32⟩
  | 109 => ⟨S100000x200, .f32⟩
  | 110 => ⟨S100000x200, .f32⟩
  | 111 => ⟨S100000x200, .f32⟩
  | 112 => ⟨S400x200, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S4096x200, .f32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S640000, .i32⟩

abbrev hbmTy0_1 (i : Nat) : BufTy := match i % 128 with
  | 0 => ⟨S4096, .i32⟩
  | 1 => ⟨S4096x1, .i32⟩
  | 2 => ⟨S4096x200, .f32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S4096x1, .i32⟩
  | 11 => ⟨S4096x200, .f32⟩
  | _ => ⟨S640000, .i32⟩

abbrev hbmTy (i : Nat) : BufTy := match i / 128 with
  | 0 => hbmTy0_0 i
  | 1 => hbmTy0_1 i
  | _ => ⟨S640000, .i32⟩

abbrev bufTy : (tb : Table) → Fin (tcTables nBuf tb) → BufTy
  | .hbm, ⟨i, _⟩ => hbmTy i
  | _, _ => ⟨S640000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_5 : Ref sig .tc := ⟨.hbm, 67, rfl⟩
abbrev main_v39 : Ref sig .tc := ⟨.hbm, 68, rfl⟩
abbrev main_v40 : Ref sig .tc := ⟨.hbm, 69, rfl⟩
abbrev main_c_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_7 : Ref sig .tc := ⟨.hbm, 76, rfl⟩
abbrev main_v46 : Ref sig .tc := ⟨.hbm, 77, rfl⟩
abbrev main_v47 : Ref sig .tc := ⟨.hbm, 78, rfl⟩
abbrev main_c_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_12 : Ref sig .tc := ⟨.hbm, 113, rfl⟩
abbrev main_v78 : Ref sig .tc := ⟨.hbm, 114, rfl⟩
abbrev main_v79 : Ref sig .tc := ⟨.hbm, 115, rfl⟩
abbrev main_c_13 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_14 : Ref sig .tc := ⟨.hbm, 122, rfl⟩
abbrev main_v85 : Ref sig .tc := ⟨.hbm, 123, rfl⟩
abbrev main_v86 : Ref sig .tc := ⟨.hbm, 124, rfl⟩
abbrev main_c_15 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_c_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S640000x200_S320000x200_0_0 : S640000x200.Slices ![0, 0] S320000x200
  slices_S640000x200_S320000x200_320000_0 : S640000x200.Slices ![320000, 0] S320000x200
  concatenates_S320000x200_S320000x200_S640000x200_d0 : Shape.Concatenates [S320000x200, S320000x200] S640000x200 0
  bcast_S640000x1_S640000x200_0_1 : S640000x1.BroadcastsInDim S640000x200 (![0, 1] : Fin 2 → Fin S640000x200.rank)
  bcast_S_S100000x200 : S_.BroadcastsInDim S100000x200 (![] : Fin 0 → Fin S100000x200.rank)
  bcast_S1x200_S100000x200_0_1 : S1x200.BroadcastsInDim S100000x200 (![0, 1] : Fin 2 → Fin S100000x200.rank)
  bcast_S200_S1x200_1 : S200.BroadcastsInDim S1x200 (![1] : Fin 1 → Fin S1x200.rank)
  bcast_S_S4096 : S_.BroadcastsInDim S4096 (![] : Fin 0 → Fin S4096.rank)
  bcast_S4096_S4096x1_0 : S4096.BroadcastsInDim S4096x1 (![0] : Fin 1 → Fin S4096x1.rank)
  gather_S100000x200_S640000x1_S640000x200_1_0_n_n_0_1_1200_wf : GatherDims.WF S100000x200 S640000x1 S640000x200 [1] [0] [] [0] [] 1 ![1, 200]
  gather_S400x200_S640000x1_S640000x200_1_0_n_n_0_1_1200_wf : GatherDims.WF S400x200 S640000x1 S640000x200 [1] [0] [] [0] [] 1 ![1, 200]
  dot_S320000x200_S200x200_S320000x200_1_0_0_1_n_n_wf : DotDims.WF S320000x200 S200x200 S320000x200 [1] [0] [0] [1] [] []
  scatter_S100000x200_S640000x1_S640000x200_1_0_0_1_wf : ScatterDims.WF S100000x200 S640000x1 S640000x200 [1] [0] [0] 1
  dot_S100000x200_S200x200_S100000x200_1_0_0_1_n_n_wf : DotDims.WF S100000x200 S200x200 S100000x200 [1] [0] [0] [1] [] []
  dot_S400x200_S200x200_S400x200_1_0_0_1_n_n_wf : DotDims.WF S400x200 S200x200 S400x200 [1] [0] [0] [1] [] []
  gather_S100000x200_S4096x1_S4096x200_1_0_n_n_0_1_1200_wf : GatherDims.WF S100000x200 S4096x1 S4096x200 [1] [0] [] [0] [] 1 ![1, 200]
  gather_S400x200_S4096x1_S4096x200_1_0_n_n_0_1_1200_wf : GatherDims.WF S400x200 S4096x1 S4096x200 [1] [0] [] [0] [] 1 ![1, 200]

variable [Facts₀]

def gather_S100000x200_S640000x1_S640000x200_1_0_n_n_0_1_1200 : GatherDims S100000x200 S640000x1 S640000x200 where
  offsetDims := [1]
  collapsedSliceDims := [0]
  operandBatchingDims := []
  startIndicesBatchingDims := []
  startIndexMap := [0]
  indexVectorDim := 1
  sliceSizes := ![1, 200]
  wf := gather_S100000x200_S640000x1_S640000x200_1_0_n_n_0_1_1200_wf
def gather_S400x200_S640000x1_S640000x200_1_0_n_n_0_1_1200 : GatherDims S400x200 S640000x1 S640000x200 where
  offsetDims := [1]
  collapsedSliceDims := [0]
  operandBatchingDims := []
  startIndicesBatchingDims := []
  startIndexMap := [0]
  indexVectorDim := 1
  sliceSizes := ![1, 200]
  wf := gather_S400x200_S640000x1_S640000x200_1_0_n_n_0_1_1200_wf
def dot_S320000x200_S200x200_S320000x200_1_0_0_1_n_n : DotDims S320000x200 S200x200 S320000x200 where
  lhsContracting := [1]
  rhsContracting := [0]
  lhsNonContracting := [0]
  rhsNonContracting := [1]
  lhsBatch := []
  rhsBatch := []
  wf := dot_S320000x200_S200x200_S320000x200_1_0_0_1_n_n_wf
def scatter_S100000x200_S640000x1_S640000x200_1_0_0_1 : ScatterDims S100000x200 S640000x1 S640000x200 where
  updateWindowDims := [1]
  insertedWindowDims := [0]
  scatterDimsToOperandDims := [0]
  indexVectorDim := 1
  wf := scatter_S100000x200_S640000x1_S640000x200_1_0_0_1_wf
def dot_S100000x200_S200x200_S100000x200_1_0_0_1_n_n : DotDims S100000x200 S200x200 S100000x200 where
  lhsContracting := [1]
  rhsContracting := [0]
  lhsNonContracting := [0]
  rhsNonContracting := [1]
  lhsBatch := []
  rhsBatch := []
  wf := dot_S100000x200_S200x200_S100000x200_1_0_0_1_n_n_wf
def dot_S400x200_S200x200_S400x200_1_0_0_1_n_n : DotDims S400x200 S200x200 S400x200 where
  lhsContracting := [1]
  rhsContracting := [0]
  lhsNonContracting := [0]
  rhsNonContracting := [1]
  lhsBatch := []
  rhsBatch := []
  wf := dot_S400x200_S200x200_S400x200_1_0_0_1_n_n_wf
def gather_S100000x200_S4096x1_S4096x200_1_0_n_n_0_1_1200 : GatherDims S100000x200 S4096x1 S4096x200 where
  offsetDims := [1]
  collapsedSliceDims := [0]
  operandBatchingDims := []
  startIndicesBatchingDims := []
  startIndexMap := [0]
  indexVectorDim := 1
  sliceSizes := ![1, 200]
  wf := gather_S100000x200_S4096x1_S4096x200_1_0_n_n_0_1_1200_wf
def gather_S400x200_S4096x1_S4096x200_1_0_n_n_0_1_1200 : GatherDims S400x200 S4096x1 S4096x200 where
  offsetDims := [1]
  collapsedSliceDims := [0]
  operandBatchingDims := []
  startIndicesBatchingDims := []
  startIndexMap := [0]
  indexVectorDim := 1
  sliceSizes := ![1, 200]
  wf := gather_S400x200_S4096x1_S4096x200_1_0_n_n_0_1_1200_wf

class Facts : Prop extends Facts₀ where

variable [Facts]
-- ==== Proof.KRun.lean ====
/-
  The whole program's run with its three results named.

  The program is four kernel regions among five stretches of host operations. Its buffer contents at each boundary are a
  fold from the launch memory: a stretch of host operations applies them in order, a region leaves each of its arrays at
  what its write-backs leave and every other buffer as it was. Every weakly fair execution terminates without a fault,
  and at the end every unscoped buffer holds the last stage of that fold — in particular the three result buffers,
  while the twenty-one arguments are read back through the fold to their launch contents.
-/
import proofs.«109088_j4398046511943_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; each result buffer ends at the last stage
    of the fold through the program's segments, each argument as launched. -/
theorem run_results : θ_run defs (onTc (τ := τ) (main (F := F))) ⟨m, fun _ => 0, ρ⟩ (fun r => ∀ c : Dev nD,
      r.2.mem ((c.tc : Thread nD τ).loc main_v56) = W9 m ρ c (Proc.devRef .tc main_v56)
      ∧ r.2.mem ((c.tc : Thread nD τ).loc main_v63) = W9 m ρ c (Proc.devRef .tc main_v63)
      ∧ r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v56 (by decide)),
       h c _ (mem_uc main_v63 (by decide)),
       h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c)⟩)

end Cert.KernelIdeal.Whole

end
-- ==== Proof.Layer.lean ====
/-
  The two spellings of one graph-convolution layer, as pure functions of whole arrays at the ideal instance.

  A layer takes the per-edge composition `comp[e, ·] = x[src e, ·] · r[type e, ·]` (passed in here as one array), the
  per-edge weight `en[e]`, two square weight matrices (one for the first half of the edges, one for the second),
  and produces per-edge messages; after the messages are summed per destination node (`agg`), the node update is
  `tanh ((agg + ((x · lr) W) / 3 + b) · s)`.

  * The message step, reference spelling (`msgRef`): multiply the two halves of `comp` by their matrices, join the
    halves, then scale row `e` by `en[e]`.
  * The message step, kernel spelling (`msgKer`): scale row `e` of `comp` by `en[e]` first, then take, at entry
    `(e, j)`, the sum over `k` of `(comp · en)[e, k] · W[k, j]` with `W` chosen by the half `e` lies in.
  * The node update, reference spelling (`updRef`): the host operations one after the other, the quotient by the
    literal `3.0`, the bias vector broadcast to a row and then down the rows.
  * The node update, kernel spelling (`updKer`): entry by entry, the product with the rational `1/3`, the bias
    already given as a row.
-/
import proofs.«109088_j4398046511943_1_alg».proof.ReferenceIdeal
import Idealize.ShloMosaic.Lib.ValueIdx
import Idealize.ShloMosaic.PureOps.Ideal.Laws

noncomputable section

namespace Cert.Layer

open Idealize.ShloMosaic Idealize.ShloMosaic.ValueIdx Cert.ReferenceIdeal Cert.ReferenceIdeal.Facts₀

/-- An extended real that is a real number. -/
def IsReal (x : EReal) : Prop := ∃ r : ℝ, x = (r : EReal)

variable [Cert.ReferenceIdeal.Facts₀]

/-- The per-edge weight as a matrix: entry `(e, j)` is `en[e]`. -/
def edgeScale (en : FVec Ideal S640000 .f32) : FVec Ideal S640000x200 .f32 :=
  broadcastInDim S640000x200 ![0, 1] bcast_S640000x1_S640000x200_0_1 (broadcastInDim S640000x1 ![0] bcast_S640000_S640000x1_0 en)

/-- The reference's messages: the halves of `comp` times their matrices, joined, each row then scaled. -/
def msgRef (comp : FVec Ideal S640000x200 .f32) (en : FVec Ideal S640000 .f32) (win wout : FVec Ideal S200x200 .f32) :
    FVec Ideal S640000x200 .f32 :=
  mulf (concatenate S640000x200 0
      [⟨S320000x200, (Host.dotGeneral dot_S320000x200_S200x200_S320000x200_1_0_0_1_n_n none
          (extractStridedSlice S320000x200 ![0, 0] comp slices_S640000x200_S320000x200_0_0) win)⟩,
       ⟨S320000x200, (Host.dotGeneral dot_S320000x200_S200x200_S320000x200_1_0_0_1_n_n none
          (extractStridedSlice S320000x200 ![320000, 0] comp slices_S640000x200_S320000x200_320000_0) wout)⟩]
      concatenates_S320000x200_S320000x200_S640000x200_d0)
    (edgeScale en)

/-- A matrix with 640000 rows times the matrix its row's half selects, entry by entry. -/
def halfProduct (c : FVec Ideal S640000x200 .f32) (win wout : FVec Ideal S200x200 .f32) : FVec Ideal S640000x200 .f32 :=
  fun i => ∑ k : Fin 200, c (ix2 (i 0) k) * (if (i 0).val < 320000 then win (ix2 k (i 1)) else wout (ix2 k (i 1)))

/-- The kernel's messages: rows scaled first, then the product with the half's matrix. -/
def msgKer (comp : FVec Ideal S640000x200 .f32) (en : FVec Ideal S640000 .f32) (win wout : FVec Ideal S200x200 .f32) :
    FVec Ideal S640000x200 .f32 :=
  halfProduct (mulf comp (edgeScale en)) win wout

/-- The reference's node update. -/
def updRef (agg x : FVec Ideal S100000x200 .f32) (lr : FVec Ideal S1x200 .f32) (wl : FVec Ideal S200x200 .f32)
    (b : FVec Ideal S200 .f32) : FVec Ideal S100000x200 .f32 :=
  Host.tanh (mulf (addf (addf agg
      (Host.divf (Host.dotGeneral dot_S100000x200_S200x200_S100000x200_1_0_0_1_n_n none
          (mulf x (broadcastInDim S100000x200 ![0, 1] bcast_S1x200_S100000x200_0_1 lr)) wl)
        (broadcastInDim S100000x200 ![] bcast_S_S100000x200 (constant S_ .f32 0x40400000#32))))
      (broadcastInDim S100000x200 ![0, 1] bcast_S1x200_S100000x200_0_1 (broadcastInDim S1x200 ![1] bcast_S200_S1x200_1 b)))
    (broadcastInDim S100000x200 ![] bcast_S_S100000x200 (constant S_ .f32 0x3F7FFFAC#32)))

/-- The kernel's node update, entry by entry, the bias given as a row. -/
def updKer (agg x : FVec Ideal S100000x200 .f32) (lr : FVec Ideal S1x200 .f32) (wl : FVec Ideal S200x200 .f32)
    (b2 : FVec Ideal S1x200 .f32) : FVec Ideal S100000x200 .f32 :=
  fun i => Ideal.tanh ((agg i + (∑ k : Fin 200, (x (ix2 (i 0) k) * lr (ix2 (0 : Fin 1) k)) * wl (ix2 k (i 1))) * ((1 / 3 : ℝ) : EReal)
      + b2 (ix2 (0 : Fin 1) (i 1))) * Ideal.ofBits .f32 0x3F7FFFAC#32)

end Cert.Layer

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Msg0.lean ====
/-
  Region 0 of the program (the message product of one layer) as one function of the arrays it finds.

  The region walks the 640000 edge rows in 160 blocks of 4000 rows. At block `t` it loads rows `4000 t … 4000 t + 3999`
  of the scaled compositions and both 200 × 200 matrices whole; for `t < 80` (edges of the first half) it stores the
  product of the block with the first matrix, for `t ≥ 80` the product with the second, into the same rows of the
  output. Entry `(e, j)` of the output is therefore the sum over `k` of `c[e, k] · W[k, j]` with `W` chosen by the half
  `e` lies in, and the 160 blocks tile the output: the output array ends at `Cert.Layer.halfProduct` of the three arrays.
-/
import proofs.«109088_j4398046511943_1_alg».proof.Proof.Gen.KernelIdeal.Frame
import proofs.«109088_j4398046511943_1_alg».proof.Proof.Layer
import proofs.«109088_j4398046511943_1_alg».proof.Proof.LibPlainDot
import Idealize.ShloMosaic.Lib.Pipeline.Value
import Idealize.ShloMosaic.Lib.ValueIdx

set_option maxRecDepth 16384

noncomputable section

namespace Cert.KernelIdeal.Msg0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

section Pieces
variable {F : FTy → Type} [FloatOps F] [Named F]

/-- In the first half the one store leaves the product with the first matrix. -/
theorem outA_eq (c : Dev nD) (i : grid0.Coords) (arg1 : Memref sig .tc .vmem S4000x200 .f32) (harg1 : arg1.IsWhole) (arg2 : Memref sig .tc .vmem S200x200 .f32) (harg2 : arg2.IsWhole) (arg3 : Memref sig .tc .vmem S200x200 .f32) (harg3 : arg3.IsWhole) (arg4 : Memref sig .tc .vmem S4000x200 .f32) (harg4 : arg4.IsWhole) (hc0 : cond0_0 i) (hc1 : ¬cond0_1 i)
    (x0 : Vec F S4000x200 .f32) (x1 : Vec F S200x200 .f32) (x2 : Vec F S200x200 .f32) :
    out0_A_3 c i arg1 harg1 arg2 harg2 arg3 harg3 arg4 harg4 hc0 hc1 x0 x1 x2 = k0_pay2 x0 x1 := by
  unfold out0_A_3
  rw [View.read_writes_eq_canon _ _ _ (cover0_A_3 c i arg1 harg1 arg2 harg2 arg3 harg3 arg4 harg4 hc0 hc1 x0 x1 x2)]
  unfold kernelRun0_A
  dsimp only
  try sl_unfold_words
  rw [View.canon_unit_zero hz]
  simp only [View.readAt_eq_ld, harg1.read_unread, harg2.read_unread, View.ld_unit_zero (S := S4000x200) hz,
    View.ld_unit_zero (S := S200x200) hz]

/-- In the second half the one store leaves the product with the second matrix. -/
theorem outB_eq (c : Dev nD) (i : grid0.Coords) (arg1 : Memref sig .tc .vmem S4000x200 .f32) (harg1 : arg1.IsWhole) (arg2 : Memref sig .tc .vmem S200x200 .f32) (harg2 : arg2.IsWhole) (arg3 : Memref sig .tc .vmem S200x200 .f32) (harg3 : arg3.IsWhole) (arg4 : Memref sig .tc .vmem S4000x200 .f32) (harg4 : arg4.IsWhole) (hc0 : ¬cond0_0 i) (hc1 : cond0_1 i)
    (x0 : Vec F S4000x200 .f32) (x1 : Vec F S200x200 .f32) (x2 : Vec F S200x200 .f32) :
    out0_B_3 c i arg1 harg1 arg2 harg2 arg3 harg3 arg4 harg4 hc0 hc1 x0 x1 x2 = k0_pay3 x0 x2 := by
  unfold out0_B_3
  rw [View.read_writes_eq_canon _ _ _ (cover0_B_3 c i arg1 harg1 arg2 harg2 arg3 harg3 arg4 harg4 hc0 hc1 x0 x1 x2)]
  unfold kernelRun0_B
  dsimp only
  try sl_unfold_words
  rw [View.canon_unit_zero hz]
  simp only [View.readAt_eq_ld, harg1.read_unread, harg3.read_unread, View.ld_unit_zero (S := S4000x200) hz,
    View.ld_unit_zero (S := S200x200) hz]

end Pieces

/-- The first half's stored value at row `p`, column `q` of the block: a plain product of the block with the matrix. -/
theorem pay2_apply (v1 : Vec Ideal S4000x200 .f32) (v9 : Vec Ideal S200x200 .f32) (p : Fin 4000) (q : Fin 200) :
    k0_pay2 (F := Ideal) v1 v9 (ix2 p q) = ∑ k : Fin 200, v1 (ix2 p k) * v9 (ix2 k q) := by
  unfold k0_pay2 k0_pay1
  simp only [shapeCast_self]
  exact Cert.PlainDot.matmul_zero_ix2 dot_S4000x200_S200x200_S4000x200_1_0_0_1_n_n rfl none _ _ p q

/-- The second half's stored value at row `p`, column `q` of the block. -/
theorem pay3_apply (v1 : Vec Ideal S4000x200 .f32) (v9 : Vec Ideal S200x200 .f32) (p : Fin 4000) (q : Fin 200) :
    k0_pay3 (F := Ideal) v1 v9 (ix2 p q) = ∑ k : Fin 200, v1 (ix2 p k) * v9 (ix2 k q) := by
  unfold k0_pay3 k0_pay1
  simp only [shapeCast_self]
  exact Cert.PlainDot.matmul_zero_ix2 dot_S4000x200_S200x200_S4000x200_1_0_0_1_n_n rfl none _ _ p q

/-- Where the printed index maps put each window's block at point `t`: the edge rows move with `t`, the matrices stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the half product of the arrays the region finds. -/
theorem flushed_eq (c : Dev nD) (t : Fin cfg0.N) :
    (dat0 V c).flushed 3 t = ((cfg0.win 3).blk t).view.read (Elt Ideal)
      (Cert.Layer.halfProduct (V c main_v17) (V c main_arg9) (V c main_arg10)) := by
  show (cfg0.win 3).cut (grid0.coords t) ((dat0 V c).after 3 t) = _
  rw [after0_3]
  obtain ⟨e00, e01, e10, e11, e20, e21, e30, e31⟩ := idx_facts t
  have ht : t.val < 160 := lt_of_lt_of_eq t.isLt (show cfg0.N = 160 from N_0)
  by_cases h : t.val < 80
  · rw [outsAt0_A V c t h (by omega), outA_eq]
    funext j
    obtain ⟨p, q, rfl⟩ : ∃ (p : Fin 4000) (q : Fin 200), j = ix2 p q := ⟨j 0, j 1, eq_ix2 j⟩
    show k0_pay2 (F := Ideal) (iblk0 V c 0 t) (iblk0 V c 1 t) (ix2 p q)
      = Cert.Layer.halfProduct (V c main_v17) (V c main_arg9) (V c main_arg10) (((cfg0.win 3).blk t).view.emb (ix2 p q))
    refine (pay2_apply _ _ p q).trans ?_
    unfold Cert.Layer.halfProduct
    have hr : ((((cfg0.win 3).blk t).view.emb (ix2 p q)) 0).val = t.val * 4000 + p.val := by
      show win0_3.index t (0 : Fin 2) * 4000 + 1 * p.val = _
      omega
    have hq : ((((cfg0.win 3).blk t).view.emb (ix2 p q)) 1).val = q.val := by
      show win0_3.index t (1 : Fin 2) * 200 + 1 * q.val = _
      omega
    have hp : p.val < 4000 := p.isLt
    refine Finset.sum_congr rfl fun k _ => ?_
    rw [if_pos (by omega)]
    refine congrArg₂ (· * ·) ?_ ?_
    · show V c main_v17 (((cfg0.win 0).blk t).view.emb (ix2 p k)) = V c main_v17 _
      refine congrArg (V c main_v17) (funext fun a => Fin.ext ?_)
      match a with
      | ⟨0, _⟩ =>
        show win0_0.index t (0 : Fin 2) * 4000 + 1 * p.val = ((((cfg0.win 3).blk t).view.emb (ix2 p q)) 0).val
        omega
      | ⟨1, _⟩ =>
        show win0_0.index t (1 : Fin 2) * 200 + 1 * k.val = k.val
        omega
    · show V c main_arg9 (((cfg0.win 1).blk t).view.emb (ix2 k q)) = V c main_arg9 _
      refine congrArg (V c main_arg9) (funext fun a => Fin.ext ?_)
      match a with
      | ⟨0, _⟩ =>
        show win0_1.index t (0 : Fin 2) * 200 + 1 * k.val = k.val
        omega
      | ⟨1, _⟩ =>
        show win0_1.index t (1 : Fin 2) * 200 + 1 * q.val = ((((cfg0.win 3).blk t).view.emb (ix2 p q)) 1).val
        omega
  · rw [outsAt0_B V c t h (by omega), outB_eq]
    funext j
    obtain ⟨p, q, rfl⟩ : ∃ (p : Fin 4000) (q : Fin 200), j = ix2 p q := ⟨j 0, j 1, eq_ix2 j⟩
    show k0_pay3 (F := Ideal) (iblk0 V c 0 t) (iblk0 V c 2 t) (ix2 p q)
      = Cert.Layer.halfProduct (V c main_v17) (V c main_arg9) (V c main_arg10) (((cfg0.win 3).blk t).view.emb (ix2 p q))
    refine (pay3_apply _ _ p q).trans ?_
    unfold Cert.Layer.halfProduct
    have hr : ((((cfg0.win 3).blk t).view.emb (ix2 p q)) 0).val = t.val * 4000 + p.val := by
      show win0_3.index t (0 : Fin 2) * 4000 + 1 * p.val = _
      omega
    have hq : ((((cfg0.win 3).blk t).view.emb (ix2 p q)) 1).val = q.val := by
      show win0_3.index t (1 : Fin 2) * 200 + 1 * q.val = _
      omega
    have hp : p.val < 4000 := p.isLt
    refine Finset.sum_congr rfl fun k _ => ?_
    rw [if_neg (by omega)]
    refine congrArg₂ (· * ·) ?_ ?_
    · show V c main_v17 (((cfg0.win 0).blk t).view.emb (ix2 p k)) = V c main_v17 _
      refine congrArg (V c main_v17) (funext fun a => Fin.ext ?_)
      match a with
      | ⟨0, _⟩ =>
        show win0_0.index t (0 : Fin 2) * 4000 + 1 * p.val = ((((cfg0.win 3).blk t).view.emb (ix2 p q)) 0).val
        omega
      | ⟨1, _⟩ =>
        show win0_0.index t (1 : Fin 2) * 200 + 1 * k.val = k.val
        omega
    · show V c main_arg10 (((cfg0.win 2).blk t).view.emb (ix2 k q)) = V c main_arg10 _
      refine congrArg (V c main_arg10) (funext fun a => Fin.ext ?_)
      match a with
      | ⟨0, _⟩ =>
        show win0_2.index t (0 : Fin 2) * 200 + 1 * k.val = k.val
        omega
      | ⟨1, _⟩ =>
        show win0_2.index t (1 : Fin 2) * 200 + 1 * q.val = ((((cfg0.win 3).blk t).view.emb (ix2 p q)) 1).val
        omega

/-- An index of the output array is in point `t`'s block iff its row is among the block's 4000 rows. -/
theorem mem_blk (t : Fin cfg0.N) (i : S640000x200.Idx) :
    i ∈ ((cfg0.win 3).blk t).view.set ↔ ∀ a : Fin 2, win0_3.index t a * S4000x200.size a ≤ (i a).val ∧ (i a).val < win0_3.index t a * S4000x200.size a + S4000x200.size a := by
  show i ∈ ((View.whole main_v18).slice (win0_3.rect t)).set ↔ _
  rw [View.set_slice_whole, Rect.mem_set_unit]
  exact Iff.rfl

/-- Every row of the output is in the block of the point numbered by the row's quotient by 4000. -/
theorem cover (i : S640000x200.Idx) :
    ∃ t : Fin cfg0.N, (cfg0.win 3).flush t = true ∧ i ∈ ((cfg0.win 3).blk t).view.set := by
  have hi0 : (i 0).val < 640000 := (i 0).isLt
  have hi1 : (i 1).val < 200 := (i 1).isLt
  have hN : cfg0.N = 160 := N_0
  refine ⟨⟨(i 0).val / 4000, by omega⟩, flush0_3 _, ?_⟩
  obtain ⟨-, -, -, -, -, -, e30, e31⟩ := idx_facts ⟨(i 0).val / 4000, by omega⟩
  rw [mem_blk]
  intro a
  match a with
  | ⟨0, _⟩ =>
    show win0_3.index _ (0 : Fin 2) * 4000 ≤ (i 0).val ∧ (i 0).val < win0_3.index _ (0 : Fin 2) * 4000 + 4000
    rw [e30]
    show (i 0).val / 4000 * 4000 ≤ (i 0).val ∧ (i 0).val < (i 0).val / 4000 * 4000 + 4000
    omega
  | ⟨1, _⟩ =>
    show win0_3.index _ (1 : Fin 2) * 200 ≤ (i 1).val ∧ (i 1).val < win0_3.index _ (1 : Fin 2) * 200 + 200
    rw [e31]
    omega

/-- The output array after the region: the half product of the arrays the region finds. -/
theorem final (c : Dev nD) :
    (dat0 V c).arrAt 3 cfg0.N = Cert.Layer.halfProduct (V c main_v17) (V c main_arg9) (V c main_arg10) :=
  (dat0 V c).arrAt_eq_of_cover 3 _ (fun t _ => flushed_eq V c t) cover

end Cert.KernelIdeal.Msg0

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.Upd1.lean ====
/-
  Region 1 of the program (the node update of one layer) as one function of the arrays it finds.

  The region walks the 100000 node rows in 25 blocks of 4000 rows. At block `t` it loads rows `4000 t … 4000 t + 3999` of
  the aggregated messages and of the node features, the whole row of self-loop weights, the whole 200 × 200 matrix and
  the whole bias row, and stores `tanh ((agg + ((x · lr) W) · (1/3) + bias) · s)` into the same rows of the output. Entry
  `(n, j)` of the output therefore depends on row `n` of `agg` and `x` only, and the 25 blocks tile the output: the
  output array ends at `Cert.Layer.updKer` of the five arrays.
-/
import proofs.«109088_j4398046511943_1_alg».proof.Proof.Gen.KernelIdeal.Frame
import proofs.«109088_j4398046511943_1_alg».proof.Proof.Layer
import proofs.«109088_j4398046511943_1_alg».proof.Proof.LibPlainDot
import proofs.«109088_j4398046511943_1_alg».proof.Proof.LibRowBroadcast
import Idealize.ShloMosaic.Lib.Pipeline.Value
import Idealize.ShloMosaic.Lib.ValueIdx
import Idealize.ShloMosaic.PureOps.IdealRules

set_option maxRecDepth 16384

noncomputable section

namespace Cert.KernelIdeal.Upd1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The named third is the rational 1/3 at the ideal instance. -/
theorem inv_3 : Named.named (F := Ideal) κ "inv_3" (φ := .f32) 0x3EAAAAAB#32 = ((1 / 3 : ℝ) : EReal) :=
  IdealRules.named_const.ideal_named_scalar _ _ _ _ rfl

/-- The body's stored value at row `p`, column `q` of the block: the update formula of the loaded blocks. -/
theorem pay_apply (vx vagg : Vec Ideal S4000x200 .f32) (vlr vb : Vec Ideal S1x200 .f32) (vw : Vec Ideal S200x200 .f32)
    (p : Fin 4000) (q : Fin 200) :
    k1_pay1 (F := Ideal) vx vlr vw vagg vb (ix2 p q)
      = Ideal.tanh ((vagg (ix2 p q) + (∑ k : Fin 200, (vx (ix2 p k) * vlr (ix2 (0 : Fin 1) k)) * vw (ix2 k q)) * ((1 / 3 : ℝ) : EReal)
          + vb (ix2 (0 : Fin 1) q)) * Ideal.ofBits .f32 0x3F7FFFAC#32) := by
  unfold k1_pay1
  simp only [shapeCast_self]
  show Ideal.tanh ((vagg (ix2 p q) + matmul dot_S4000x200_S200x200_S4000x200_1_0_0_1_n_n none
      (truncf .bf16 (mulf vx (broadcastTo S4000x200 vlr broadcasts_S1x200_S4000x200)) bitsLt_bf16_f32) (truncf .bf16 vw bitsLt_bf16_f32)
      (constant (F := Ideal) S4000x200 .f32 0x00000000#32) (ix2 p q) * Named.named (F := Ideal) κ "inv_3" (φ := .f32) 0x3EAAAAAB#32
      + broadcastTo S4000x200 vb broadcasts_S1x200_S4000x200 (ix2 p q)) * Ideal.ofBits .f32 0x3F7FFFAC#32) = _
  rw [Cert.PlainDot.matmul_zero_ix2 dot_S4000x200_S200x200_S4000x200_1_0_0_1_n_n rfl, inv_3,
    Cert.LibRowBroadcast.broadcastTo_1b_ab_apply vb]
  refine congrArg (fun s => Ideal.tanh ((vagg (ix2 p q) + s * ((1 / 3 : ℝ) : EReal) + vb (ix2 (0 : Fin 1) q)) * Ideal.ofBits .f32 0x3F7FFFAC#32)) ?_
  refine Finset.sum_congr rfl fun k _ => ?_
  show (vx (ix2 p k) * broadcastTo S4000x200 vlr broadcasts_S1x200_S4000x200 (ix2 p k)) * vw (ix2 k q) = _
  rw [Cert.LibRowBroadcast.broadcastTo_1b_ab_apply vlr]

/-- Where the printed index maps put each window's block at point `t`: the node rows move with `t`, the rest stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

set_option maxHeartbeats 1000000 in
/-- What point `t` writes back is block `t` of the node update of the arrays the region finds. -/
theorem flushed_eq (c : Dev nD) (t : Fin cfg1.N) :
    (dat1 V c).flushed 5 t = ((cfg1.win 5).blk t).view.read (Elt Ideal)
      (Cert.Layer.updKer (V c main_v21) (V c main_arg7) (V c main_arg13) (V c main_arg11) (V c main_v22)) := by
  show (cfg1.win 5).cut (grid1.coords t) ((dat1 V c).after 5 t) = _
  rw [after1_5]
  unfold out1_5
  rw [View.canon_unit_zero hz]
  simp only [View.ld_unit_zero (S := S4000x200) hz, View.ld_unit_zero (S := S1x200) hz, View.ld_unit_zero (S := S200x200) hz]
  obtain ⟨e00, e01, e10, e11, e20, e21, e30, e31, e40, e41, e50, e51⟩ := idx_facts t
  funext j
  obtain ⟨p, q, rfl⟩ : ∃ (p : Fin 4000) (q : Fin 200), j = ix2 p q := ⟨j 0, j 1, eq_ix2 j⟩
  show k1_pay1 (F := Ideal) (iblk1 V c 1 t) (iblk1 V c 2 t) (iblk1 V c 3 t) (iblk1 V c 0 t) (iblk1 V c 4 t) (ix2 p q)
    = Cert.Layer.updKer (V c main_v21) (V c main_arg7) (V c main_arg13) (V c main_arg11) (V c main_v22) (((cfg1.win 5).blk t).view.emb (ix2 p q))
  refine (pay_apply _ _ _ _ _ p q).trans ?_
  unfold Cert.Layer.updKer
  have hr : ((((cfg1.win 5).blk t).view.emb (ix2 p q)) 0).val = t.val * 4000 + p.val := by
    show win1_5.index t (0 : Fin 2) * 4000 + 1 * p.val = _
    omega
  have hq : ((((cfg1.win 5).blk t).view.emb (ix2 p q)) 1).val = q.val := by
    show win1_5.index t (1 : Fin 2) * 200 + 1 * q.val = _
    omega
  have h0 : iblk1 V c 0 t (ix2 p q) = V c main_v21 (((cfg1.win 5).blk t).view.emb (ix2 p q)) := by
    show V c main_v21 (((cfg1.win 0).blk t).view.emb (ix2 p q)) = V c main_v21 _
    refine congrArg (V c main_v21) (funext fun a => Fin.ext ?_)
    match a with
    | ⟨0, _⟩ =>
      show win1_0.index t (0 : Fin 2) * 4000 + 1 * p.val = ((((cfg1.win 5).blk t).view.emb (ix2 p q)) 0).val
      omega
    | ⟨1, _⟩ =>
      show win1_0.index t (1 : Fin 2) * 200 + 1 * q.val = ((((cfg1.win 5).blk t).view.emb (ix2 p q)) 1).val
      omega
  have h4 : iblk1 V c 4 t (ix2 (0 : Fin 1) q) = V c main_v22 (ix2 (0 : Fin 1) ((((cfg1.win 5).blk t).view.emb (ix2 p q)) 1)) := by
    show V c main_v22 (((cfg1.win 4).blk t).view.emb (ix2 (0 : Fin 1) q)) = V c main_v22 _
    refine congrArg (V c main_v22) (funext fun a => Fin.ext ?_)
    match a with
    | ⟨0, _⟩ =>
      show win1_4.index t (0 : Fin 2) * 1 + 1 * 0 = 0
      omega
    | ⟨1, _⟩ =>
      show win1_4.index t (1 : Fin 2) * 200 + 1 * q.val = ((((cfg1.win 5).blk t).view.emb (ix2 p q)) 1).val
      omega
  refine congrArg Ideal.tanh (congrArg (· * Ideal.ofBits .f32 0x3F7FFFAC#32) (congrArg₂ (· + ·) (congrArg₂ (· + ·) h0
    (congrArg (· * ((1 / 3 : ℝ) : EReal)) (Finset.sum_congr rfl fun k _ => ?_))) h4))
  refine congrArg₂ (· * ·) (congrArg₂ (· * ·) ?_ ?_) ?_
  · show V c main_arg7 (((cfg1.win 1).blk t).view.emb (ix2 p k)) = V c main_arg7 _
    refine congrArg (V c main_arg7) (funext fun a => Fin.ext ?_)
    match a with
    | ⟨0, _⟩ =>
      show win1_1.index t (0 : Fin 2) * 4000 + 1 * p.val = ((((cfg1.win 5).blk t).view.emb (ix2 p q)) 0).val
      omega
    | ⟨1, _⟩ =>
      show win1_1.index t (1 : Fin 2) * 200 + 1 * k.val = k.val
      omega
  · show V c main_arg13 (((cfg1.win 2).blk t).view.emb (ix2 (0 : Fin 1) k)) = V c main_arg13 _
    refine congrArg (V c main_arg13) (funext fun a => Fin.ext ?_)
    match a with
    | ⟨0, _⟩ =>
      show win1_2.index t (0 : Fin 2) * 1 + 1 * 0 = 0
      omega
    | ⟨1, _⟩ =>
      show win1_2.index t (1 : Fin 2) * 200 + 1 * k.val = k.val
      omega
  · show V c main_arg11 (((cfg1.win 3).blk t).view.emb (ix2 k q)) = V c main_arg11 _
    refine congrArg (V c main_arg11) (funext fun a => Fin.ext ?_)
    match a with
    | ⟨0, _⟩ =>
      show win1_3.index t (0 : Fin 2) * 200 + 1 * k.val = k.val
      omega
    | ⟨1, _⟩ =>
      show win1_3.index t (1 : Fin 2) * 200 + 1 * q.val = ((((cfg1.win 5).blk t).view.emb (ix2 p q)) 1).val
      omega

/-- An index of the output array is in point `t`'s block iff its row is among the block's 4000 rows. -/
theorem mem_blk (t : Fin cfg1.N) (i : S100000x200.Idx) :
    i ∈ ((cfg1.win 5).blk t).view.set ↔ ∀ a : Fin 2, win1_5.index t a * S4000x200.size a ≤ (i a).val ∧ (i a).val < win1_5.index t a * S4000x200.size a + S4000x200.size a := by
  show i ∈ ((View.whole main_v23).slice (win1_5.rect t)).set ↔ _
  rw [View.set_slice_whole, Rect.mem_set_unit]
  exact Iff.rfl

/-- Every row of the output is in the block of the point numbered by the row's quotient by 4000. -/
theorem cover (i : S100000x200.Idx) :
    ∃ t : Fin cfg1.N, (cfg1.win 5).flush t = true ∧ i ∈ ((cfg1.win 5).blk t).view.set := by
  have hi0 : (i 0).val < 100000 := (i 0).isLt
  have hi1 : (i 1).val < 200 := (i 1).isLt
  have hN : cfg1.N = 25 := N_1
  refine ⟨⟨(i 0).val / 4000, by omega⟩, flush1_5 _, ?_⟩
  obtain ⟨-, -, -, -, -, -, -, -, -, -, e50, e51⟩ := idx_facts ⟨(i 0).val / 4000, by omega⟩
  rw [mem_blk]
  intro a
  match a with
  | ⟨0, _⟩ =>
    show win1_5.index _ (0 : Fin 2) * 4000 ≤ (i 0).val ∧ (i 0).val < win1_5.index _ (0 : Fin 2) * 4000 + 4000
    rw [e50]
    show (i 0).val / 4000 * 4000 ≤ (i 0).val ∧ (i 0).val < (i 0).val / 4000 * 4000 + 4000
    omega
  | ⟨1, _⟩ =>
    show win1_5.index _ (1 : Fin 2) * 200 ≤ (i 1).val ∧ (i 1).val < win1_5.index _ (1 : Fin 2) * 200 + 200
    rw [e51]
    omega

/-- The output array after the region: the node update of the arrays the region finds. -/
theorem final (c : Dev nD) :
    (dat1 V c).arrAt 5 cfg1.N = Cert.Layer.updKer (V c main_v21) (V c main_arg7) (V c main_arg13) (V c main_arg11) (V c main_v22) :=
  (dat1 V c).arrAt_eq_of_cover 5 _ (fun t _ => flushed_eq V c t) cover

end Cert.KernelIdeal.Upd1

end
-- ==== Proof.Msg2.lean ====
/-
  Region 2 of the program (the message product of one layer) as one function of the arrays it finds.

  The region walks the 640000 edge rows in 160 blocks of 4000 rows. At block `t` it loads rows `4000 t … 4000 t + 3999`
  of the scaled compositions and both 200 × 200 matrices whole; for `t < 80` (edges of the first half) it stores the
  product of the block with the first matrix, for `t ≥ 80` the product with the second, into the same rows of the
  output. Entry `(e, j)` of the output is therefore the sum over `k` of `c[e, k] · W[k, j]` with `W` chosen by the half
  `e` lies in, and the 160 blocks tile the output: the output array ends at `Cert.Layer.halfProduct` of the three arrays.
-/
import proofs.«109088_j4398046511943_1_alg».proof.Proof.Gen.KernelIdeal.Frame
import proofs.«109088_j4398046511943_1_alg».proof.Proof.Layer
import proofs.«109088_j4398046511943_1_alg».proof.Proof.LibPlainDot
import Idealize.ShloMosaic.Lib.Pipeline.Value
import Idealize.ShloMosaic.Lib.ValueIdx

set_option maxRecDepth 16384

noncomputable section

namespace Cert.KernelIdeal.Msg2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

section Pieces
variable {F : FTy → Type} [FloatOps F] [Named F]

/-- In the first half the one store leaves the product with the first matrix. -/
theorem outA_eq (c : Dev nD) (i : grid2.Coords) (arg1 : Memref sig .tc .vmem S4000x200 .f32) (harg1 : arg1.IsWhole) (arg2 : Memref sig .tc .vmem S200x200 .f32) (harg2 : arg2.IsWhole) (arg3 : Memref sig .tc .vmem S200x200 .f32) (harg3 : arg3.IsWhole) (arg4 : Memref sig .tc .vmem S4000x200 .f32) (harg4 : arg4.IsWhole) (hc0 : cond2_0 i) (hc1 : ¬cond2_1 i)
    (x0 : Vec F S4000x200 .f32) (x1 : Vec F S200x200 .f32) (x2 : Vec F S200x200 .f32) :
    out2_A_3 c i arg1 harg1 arg2 harg2 arg3 harg3 arg4 harg4 hc0 hc1 x0 x1 x2 = k2_pay2 x0 x1 := by
  unfold out2_A_3
  rw [View.read_writes_eq_canon _ _ _ (cover2_A_3 c i arg1 harg1 arg2 harg2 arg3 harg3 arg4 harg4 hc0 hc1 x0 x1 x2)]
  unfold kernelRun2_A
  dsimp only
  try sl_unfold_words
  rw [View.canon_unit_zero hz]
  simp only [View.readAt_eq_ld, harg1.read_unread, harg2.read_unread, View.ld_unit_zero (S := S4000x200) hz,
    View.ld_unit_zero (S := S200x200) hz]

/-- In the second half the one store leaves the product with the second matrix. -/
theorem outB_eq (c : Dev nD) (i : grid2.Coords) (arg1 : Memref sig .tc .vmem S4000x200 .f32) (harg1 : arg1.IsWhole) (arg2 : Memref sig .tc .vmem S200x200 .f32) (harg2 : arg2.IsWhole) (arg3 : Memref sig .tc .vmem S200x200 .f32) (harg3 : arg3.IsWhole) (arg4 : Memref sig .tc .vmem S4000x200 .f32) (harg4 : arg4.IsWhole) (hc0 : ¬cond2_0 i) (hc1 : cond2_1 i)
    (x0 : Vec F S4000x200 .f32) (x1 : Vec F S200x200 .f32) (x2 : Vec F S200x200 .f32) :
    out2_B_3 c i arg1 harg1 arg2 harg2 arg3 harg3 arg4 harg4 hc0 hc1 x0 x1 x2 = k2_pay3 x0 x2 := by
  unfold out2_B_3
  rw [View.read_writes_eq_canon _ _ _ (cover2_B_3 c i arg1 harg1 arg2 harg2 arg3 harg3 arg4 harg4 hc0 hc1 x0 x1 x2)]
  unfold kernelRun2_B
  dsimp only
  try sl_unfold_words
  rw [View.canon_unit_zero hz]
  simp only [View.readAt_eq_ld, harg1.read_unread, harg3.read_unread, View.ld_unit_zero (S := S4000x200) hz,
    View.ld_unit_zero (S := S200x200) hz]

end Pieces

/-- The first half's stored value at row `p`, column `q` of the block: a plain product of the block with the matrix. -/
theorem pay2_apply (v1 : Vec Ideal S4000x200 .f32) (v9 : Vec Ideal S200x200 .f32) (p : Fin 4000) (q : Fin 200) :
    k2_pay2 (F := Ideal) v1 v9 (ix2 p q) = ∑ k : Fin 200, v1 (ix2 p k) * v9 (ix2 k q) := by
  unfold k2_pay2 k2_pay1
  simp only [shapeCast_self]
  exact Cert.PlainDot.matmul_zero_ix2 dot_S4000x200_S200x200_S4000x200_1_0_0_1_n_n rfl none _ _ p q

/-- The second half's stored value at row `p`, column `q` of the block. -/
theorem pay3_apply (v1 : Vec Ideal S4000x200 .f32) (v9 : Vec Ideal S200x200 .f32) (p : Fin 4000) (q : Fin 200) :
    k2_pay3 (F := Ideal) v1 v9 (ix2 p q) = ∑ k : Fin 200, v1 (ix2 p k) * v9 (ix2 k q) := by
  unfold k2_pay3 k2_pay1
  simp only [shapeCast_self]
  exact Cert.PlainDot.matmul_zero_ix2 dot_S4000x200_S200x200_S4000x200_1_0_0_1_n_n rfl none _ _ p q

/-- Where the printed index maps put each window's block at point `t`: the edge rows move with `t`, the matrices stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the half product of the arrays the region finds. -/
theorem flushed_eq (c : Dev nD) (t : Fin cfg2.N) :
    (dat2 V c).flushed 3 t = ((cfg2.win 3).blk t).view.read (Elt Ideal)
      (Cert.Layer.halfProduct (V c main_v42) (V c main_arg15) (V c main_arg16)) := by
  show (cfg2.win 3).cut (grid2.coords t) ((dat2 V c).after 3 t) = _
  rw [after2_3]
  obtain ⟨e00, e01, e10, e11, e20, e21, e30, e31⟩ := idx_facts t
  have ht : t.val < 160 := lt_of_lt_of_eq t.isLt (show cfg2.N = 160 from N_2)
  by_cases h : t.val < 80
  · rw [outsAt2_A V c t h (by omega), outA_eq]
    funext j
    obtain ⟨p, q, rfl⟩ : ∃ (p : Fin 4000) (q : Fin 200), j = ix2 p q := ⟨j 0, j 1, eq_ix2 j⟩
    show k2_pay2 (F := Ideal) (iblk2 V c 0 t) (iblk2 V c 1 t) (ix2 p q)
      = Cert.Layer.halfProduct (V c main_v42) (V c main_arg15) (V c main_arg16) (((cfg2.win 3).blk t).view.emb (ix2 p q))
    refine (pay2_apply _ _ p q).trans ?_
    unfold Cert.Layer.halfProduct
    have hr : ((((cfg2.win 3).blk t).view.emb (ix2 p q)) 0).val = t.val * 4000 + p.val := by
      show win2_3.index t (0 : Fin 2) * 4000 + 1 * p.val = _
      omega
    have hq : ((((cfg2.win 3).blk t).view.emb (ix2 p q)) 1).val = q.val := by
      show win2_3.index t (1 : Fin 2) * 200 + 1 * q.val = _
      omega
    have hp : p.val < 4000 := p.isLt
    refine Finset.sum_congr rfl fun k _ => ?_
    rw [if_pos (by omega)]
    refine congrArg₂ (· * ·) ?_ ?_
    · show V c main_v42 (((cfg2.win 0).blk t).view.emb (ix2 p k)) = V c main_v42 _
      refine congrArg (V c main_v42) (funext fun a => Fin.ext ?_)
      match a with
      | ⟨0, _⟩ =>
        show win2_0.index t (0 : Fin 2) * 4000 + 1 * p.val = ((((cfg2.win 3).blk t).view.emb (ix2 p q)) 0).val
        omega
      | ⟨1, _⟩ =>
        show win2_0.index t (1 : Fin 2) * 200 + 1 * k.val = k.val
        omega
    · show V c main_arg15 (((cfg2.win 1).blk t).view.emb (ix2 k q)) = V c main_arg15 _
      refine congrArg (V c main_arg15) (funext fun a => Fin.ext ?_)
      match a with
      | ⟨0, _⟩ =>
        show win2_1.index t (0 : Fin 2) * 200 + 1 * k.val = k.val
        omega
      | ⟨1, _⟩ =>
        show win2_1.index t (1 : Fin 2) * 200 + 1 * q.val = ((((cfg2.win 3).blk t).view.emb (ix2 p q)) 1).val
        omega
  · rw [outsAt2_B V c t h (by omega), outB_eq]
    funext j
    obtain ⟨p, q, rfl⟩ : ∃ (p : Fin 4000) (q : Fin 200), j = ix2 p q := ⟨j 0, j 1, eq_ix2 j⟩
    show k2_pay3 (F := Ideal) (iblk2 V c 0 t) (iblk2 V c 2 t) (ix2 p q)
      = Cert.Layer.halfProduct (V c main_v42) (V c main_arg15) (V c main_arg16) (((cfg2.win 3).blk t).view.emb (ix2 p q))
    refine (pay3_apply _ _ p q).trans ?_
    unfold Cert.Layer.halfProduct
    have hr : ((((cfg2.win 3).blk t).view.emb (ix2 p q)) 0).val = t.val * 4000 + p.val := by
      show win2_3.index t (0 : Fin 2) * 4000 + 1 * p.val = _
      omega
    have hq : ((((cfg2.win 3).blk t).view.emb (ix2 p q)) 1).val = q.val := by
      show win2_3.index t (1 : Fin 2) * 200 + 1 * q.val = _
      omega
    have hp : p.val < 4000 := p.isLt
    refine Finset.sum_congr rfl fun k _ => ?_
    rw [if_neg (by omega)]
    refine congrArg₂ (· * ·) ?_ ?_
    · show V c main_v42 (((cfg2.win 0).blk t).view.emb (ix2 p k)) = V c main_v42 _
      refine congrArg (V c main_v42) (funext fun a => Fin.ext ?_)
      match a with
      | ⟨0, _⟩ =>
        show win2_0.index t (0 : Fin 2) * 4000 + 1 * p.val = ((((cfg2.win 3).blk t).view.emb (ix2 p q)) 0).val
        omega
      | ⟨1, _⟩ =>
        show win2_0.index t (1 : Fin 2) * 200 + 1 * k.val = k.val
        omega
    · show V c main_arg16 (((cfg2.win 2).blk t).view.emb (ix2 k q)) = V c main_arg16 _
      refine congrArg (V c main_arg16) (funext fun a => Fin.ext ?_)
      match a with
      | ⟨0, _⟩ =>
        show win2_2.index t (0 : Fin 2) * 200 + 1 * k.val = k.val
        omega
      | ⟨1, _⟩ =>
        show win2_2.index t (1 : Fin 2) * 200 + 1 * q.val = ((((cfg2.win 3).blk t).view.emb (ix2 p q)) 1).val
        omega

/-- An index of the output array is in point `t`'s block iff its row is among the block's 4000 rows. -/
theorem mem_blk (t : Fin cfg2.N) (i : S640000x200.Idx) :
    i ∈ ((cfg2.win 3).blk t).view.set ↔ ∀ a : Fin 2, win2_3.index t a * S4000x200.size a ≤ (i a).val ∧ (i a).val < win2_3.index t a * S4000x200.size a + S4000x200.size a := by
  show i ∈ ((View.whole main_v43).slice (win2_3.rect t)).set ↔ _
  rw [View.set_slice_whole, Rect.mem_set_unit]
  exact Iff.rfl

/-- Every row of the output is in the block of the point numbered by the row's quotient by 4000. -/
theorem cover (i : S640000x200.Idx) :
    ∃ t : Fin cfg2.N, (cfg2.win 3).flush t = true ∧ i ∈ ((cfg2.win 3).blk t).view.set := by
  have hi0 : (i 0).val < 640000 := (i 0).isLt
  have hi1 : (i 1).val < 200 := (i 1).isLt
  have hN : cfg2.N = 160 := N_2
  refine ⟨⟨(i 0).val / 4000, by omega⟩, flush2_3 _, ?_⟩
  obtain ⟨-, -, -, -, -, -, e30, e31⟩ := idx_facts ⟨(i 0).val / 4000, by omega⟩
  rw [mem_blk]
  intro a
  match a with
  | ⟨0, _⟩ =>
    show win2_3.index _ (0 : Fin 2) * 4000 ≤ (i 0).val ∧ (i 0).val < win2_3.index _ (0 : Fin 2) * 4000 + 4000
    rw [e30]
    show (i 0).val / 4000 * 4000 ≤ (i 0).val ∧ (i 0).val < (i 0).val / 4000 * 4000 + 4000
    omega
  | ⟨1, _⟩ =>
    show win2_3.index _ (1 : Fin 2) * 200 ≤ (i 1).val ∧ (i 1).val < win2_3.index _ (1 : Fin 2) * 200 + 200
    rw [e31]
    omega

/-- The output array after the region: the half product of the arrays the region finds. -/
theorem final (c : Dev nD) :
    (dat2 V c).arrAt 3 cfg2.N = Cert.Layer.halfProduct (V c main_v42) (V c main_arg15) (V c main_arg16) :=
  (dat2 V c).arrAt_eq_of_cover 3 _ (fun t _ => flushed_eq V c t) cover

end Cert.KernelIdeal.Msg2

end
-- ==== Proof.Upd3.lean ====
/-
  Region 3 of the program (the node update of one layer) as one function of the arrays it finds.

  The region walks the 100000 node rows in 25 blocks of 4000 rows. At block `t` it loads rows `4000 t … 4000 t + 3999` of
  the aggregated messages and of the node features, the whole row of self-loop weights, the whole 200 × 200 matrix and
  the whole bias row, and stores `tanh ((agg + ((x · lr) W) · (1/3) + bias) · s)` into the same rows of the output. Entry
  `(n, j)` of the output therefore depends on row `n` of `agg` and `x` only, and the 25 blocks tile the output: the
  output array ends at `Cert.Layer.updKer` of the five arrays.
-/
import proofs.«109088_j4398046511943_1_alg».proof.Proof.Gen.KernelIdeal.Frame
import proofs.«109088_j4398046511943_1_alg».proof.Proof.Layer
import proofs.«109088_j4398046511943_1_alg».proof.Proof.LibPlainDot
import proofs.«109088_j4398046511943_1_alg».proof.Proof.LibRowBroadcast
import Idealize.ShloMosaic.Lib.Pipeline.Value
import Idealize.ShloMosaic.Lib.ValueIdx
import Idealize.ShloMosaic.PureOps.IdealRules

set_option maxRecDepth 16384

noncomputable section

namespace Cert.KernelIdeal.Upd3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The named third is the rational 1/3 at the ideal instance. -/
theorem inv_3 : Named.named (F := Ideal) κ "inv_3" (φ := .f32) 0x3EAAAAAB#32 = ((1 / 3 : ℝ) : EReal) :=
  IdealRules.named_const.ideal_named_scalar _ _ _ _ rfl

/-- The body's stored value at row `p`, column `q` of the block: the update formula of the loaded blocks. -/
theorem pay_apply (vx vagg : Vec Ideal S4000x200 .f32) (vlr vb : Vec Ideal S1x200 .f32) (vw : Vec Ideal S200x200 .f32)
    (p : Fin 4000) (q : Fin 200) :
    k3_pay1 (F := Ideal) vx vlr vw vagg vb (ix2 p q)
      = Ideal.tanh ((vagg (ix2 p q) + (∑ k : Fin 200, (vx (ix2 p k) * vlr (ix2 (0 : Fin 1) k)) * vw (ix2 k q)) * ((1 / 3 : ℝ) : EReal)
          + vb (ix2 (0 : Fin 1) q)) * Ideal.ofBits .f32 0x3F7FFFAC#32) := by
  unfold k3_pay1
  simp only [shapeCast_self]
  show Ideal.tanh ((vagg (ix2 p q) + matmul dot_S4000x200_S200x200_S4000x200_1_0_0_1_n_n none
      (truncf .bf16 (mulf vx (broadcastTo S4000x200 vlr broadcasts_S1x200_S4000x200)) bitsLt_bf16_f32) (truncf .bf16 vw bitsLt_bf16_f32)
      (constant (F := Ideal) S4000x200 .f32 0x00000000#32) (ix2 p q) * Named.named (F := Ideal) κ "inv_3" (φ := .f32) 0x3EAAAAAB#32
      + broadcastTo S4000x200 vb broadcasts_S1x200_S4000x200 (ix2 p q)) * Ideal.ofBits .f32 0x3F7FFFAC#32) = _
  rw [Cert.PlainDot.matmul_zero_ix2 dot_S4000x200_S200x200_S4000x200_1_0_0_1_n_n rfl, inv_3,
    Cert.LibRowBroadcast.broadcastTo_1b_ab_apply vb]
  refine congrArg (fun s => Ideal.tanh ((vagg (ix2 p q) + s * ((1 / 3 : ℝ) : EReal) + vb (ix2 (0 : Fin 1) q)) * Ideal.ofBits .f32 0x3F7FFFAC#32)) ?_
  refine Finset.sum_congr rfl fun k _ => ?_
  show (vx (ix2 p k) * broadcastTo S4000x200 vlr broadcasts_S1x200_S4000x200 (ix2 p k)) * vw (ix2 k q) = _
  rw [Cert.LibRowBroadcast.broadcastTo_1b_ab_apply vlr]

/-- Where the printed index maps put each window's block at point `t`: the node rows move with `t`, the rest stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

set_option maxHeartbeats 1000000 in
/-- What point `t` writes back is block `t` of the node update of the arrays the region finds. -/
theorem flushed_eq (c : Dev nD) (t : Fin cfg3.N) :
    (dat3 V c).flushed 5 t = ((cfg3.win 5).blk t).view.read (Elt Ideal)
      (Cert.Layer.updKer (V c main_v46) (V c main_v23) (V c main_arg19) (V c main_arg17) (V c main_v47)) := by
  show (cfg3.win 5).cut (grid3.coords t) ((dat3 V c).after 5 t) = _
  rw [after3_5]
  unfold out3_5
  rw [View.canon_unit_zero hz]
  simp only [View.ld_unit_zero (S := S4000x200) hz, View.ld_unit_zero (S := S1x200) hz, View.ld_unit_zero (S := S200x200) hz]
  obtain ⟨e00, e01, e10, e11, e20, e21, e30, e31, e40, e41, e50, e51⟩ := idx_facts t
  funext j
  obtain ⟨p, q, rfl⟩ : ∃ (p : Fin 4000) (q : Fin 200), j = ix2 p q := ⟨j 0, j 1, eq_ix2 j⟩
  show k3_pay1 (F := Ideal) (iblk3 V c 1 t) (iblk3 V c 2 t) (iblk3 V c 3 t) (iblk3 V c 0 t) (iblk3 V c 4 t) (ix2 p q)
    = Cert.Layer.updKer (V c main_v46) (V c main_v23) (V c main_arg19) (V c main_arg17) (V c main_v47) (((cfg3.win 5).blk t).view.emb (ix2 p q))
  refine (pay_apply _ _ _ _ _ p q).trans ?_
  unfold Cert.Layer.updKer
  have hr : ((((cfg3.win 5).blk t).view.emb (ix2 p q)) 0).val = t.val * 4000 + p.val := by
    show win3_5.index t (0 : Fin 2) * 4000 + 1 * p.val = _
    omega
  have hq : ((((cfg3.win 5).blk t).view.emb (ix2 p q)) 1).val = q.val := by
    show win3_5.index t (1 : Fin 2) * 200 + 1 * q.val = _
    omega
  have h0 : iblk3 V c 0 t (ix2 p q) = V c main_v46 (((cfg3.win 5).blk t).view.emb (ix2 p q)) := by
    show V c main_v46 (((cfg3.win 0).blk t).view.emb (ix2 p q)) = V c main_v46 _
    refine congrArg (V c main_v46) (funext fun a => Fin.ext ?_)
    match a with
    | ⟨0, _⟩ =>
      show win3_0.index t (0 : Fin 2) * 4000 + 1 * p.val = ((((cfg3.win 5).blk t).view.emb (ix2 p q)) 0).val
      omega
    | ⟨1, _⟩ =>
      show win3_0.index t (1 : Fin 2) * 200 + 1 * q.val = ((((cfg3.win 5).blk t).view.emb (ix2 p q)) 1).val
      omega
  have h4 : iblk3 V c 4 t (ix2 (0 : Fin 1) q) = V c main_v47 (ix2 (0 : Fin 1) ((((cfg3.win 5).blk t).view.emb (ix2 p q)) 1)) := by
    show V c main_v47 (((cfg3.win 4).blk t).view.emb (ix2 (0 : Fin 1) q)) = V c main_v47 _
    refine congrArg (V c main_v47) (funext fun a => Fin.ext ?_)
    match a with
    | ⟨0, _⟩ =>
      show win3_4.index t (0 : Fin 2) * 1 + 1 * 0 = 0
      omega
    | ⟨1, _⟩ =>
      show win3_4.index t (1 : Fin 2) * 200 + 1 * q.val = ((((cfg3.win 5).blk t).view.emb (ix2 p q)) 1).val
      omega
  refine congrArg Ideal.tanh (congrArg (· * Ideal.ofBits .f32 0x3F7FFFAC#32) (congrArg₂ (· + ·) (congrArg₂ (· + ·) h0
    (congrArg (· * ((1 / 3 : ℝ) : EReal)) (Finset.sum_congr rfl fun k _ => ?_))) h4))
  refine congrArg₂ (· * ·) (congrArg₂ (· * ·) ?_ ?_) ?_
  · show V c main_v23 (((cfg3.win 1).blk t).view.emb (ix2 p k)) = V c main_v23 _
    refine congrArg (V c main_v23) (funext fun a => Fin.ext ?_)
    match a with
    | ⟨0, _⟩ =>
      show win3_1.index t (0 : Fin 2) * 4000 + 1 * p.val = ((((cfg3.win 5).blk t).view.emb (ix2 p q)) 0).val
      omega
    | ⟨1, _⟩ =>
      show win3_1.index t (1 : Fin 2) * 200 + 1 * k.val = k.val
      omega
  · show V c main_arg19 (((cfg3.win 2).blk t).view.emb (ix2 (0 : Fin 1) k)) = V c main_arg19 _
    refine congrArg (V c main_arg19) (funext fun a => Fin.ext ?_)
    match a with
    | ⟨0, _⟩ =>
      show win3_2.index t (0 : Fin 2) * 1 + 1 * 0 = 0
      omega
    | ⟨1, _⟩ =>
      show win3_2.index t (1 : Fin 2) * 200 + 1 * k.val = k.val
      omega
  · show V c main_arg17 (((cfg3.win 3).blk t).view.emb (ix2 k q)) = V c main_arg17 _
    refine congrArg (V c main_arg17) (funext fun a => Fin.ext ?_)
    match a with
    | ⟨0, _⟩ =>
      show win3_3.index t (0 : Fin 2) * 200 + 1 * k.val = k.val
      omega
    | ⟨1, _⟩ =>
      show win3_3.index t (1 : Fin 2) * 200 + 1 * q.val = ((((cfg3.win 5).blk t).view.emb (ix2 p q)) 1).val
      omega

/-- An index of the output array is in point `t`'s block iff its row is among the block's 4000 rows. -/
theorem mem_blk (t : Fin cfg3.N) (i : S100000x200.Idx) :
    i ∈ ((cfg3.win 5).blk t).view.set ↔ ∀ a : Fin 2, win3_5.index t a * S4000x200.size a ≤ (i a).val ∧ (i a).val < win3_5.index t a * S4000x200.size a + S4000x200.size a := by
  show i ∈ ((View.whole main_v48).slice (win3_5.rect t)).set ↔ _
  rw [View.set_slice_whole, Rect.mem_set_unit]
  exact Iff.rfl

/-- Every row of the output is in the block of the point numbered by the row's quotient by 4000. -/
theorem cover (i : S100000x200.Idx) :
    ∃ t : Fin cfg3.N, (cfg3.win 5).flush t = true ∧ i ∈ ((cfg3.win 5).blk t).view.set := by
  have hi0 : (i 0).val < 100000 := (i 0).isLt
  have hi1 : (i 1).val < 200 := (i 1).isLt
  have hN : cfg3.N = 25 := N_3
  refine ⟨⟨(i 0).val / 4000, by omega⟩, flush3_5 _, ?_⟩
  obtain ⟨-, -, -, -, -, -, -, -, -, -, e50, e51⟩ := idx_facts ⟨(i 0).val / 4000, by omega⟩
  rw [mem_blk]
  intro a
  match a with
  | ⟨0, _⟩ =>
    show win3_5.index _ (0 : Fin 2) * 4000 ≤ (i 0).val ∧ (i 0).val < win3_5.index _ (0 : Fin 2) * 4000 + 4000
    rw [e50]
    show (i 0).val / 4000 * 4000 ≤ (i 0).val ∧ (i 0).val < (i 0).val / 4000 * 4000 + 4000
    omega
  | ⟨1, _⟩ =>
    show win3_5.index _ (1 : Fin 2) * 200 ≤ (i 1).val ∧ (i 1).val < win3_5.index _ (1 : Fin 2) * 200 + 200
    rw [e51]
    omega

/-- The output array after the region: the node update of the arrays the region finds. -/
theorem final (c : Dev nD) :
    (dat3 V c).arrAt 5 cfg3.N = Cert.Layer.updKer (V c main_v46) (V c main_v23) (V c main_arg19) (V c main_arg17) (V c main_v47) :=
  (dat3 V c).arrAt_eq_of_cover 5 _ (fun t _ => flushed_eq V c t) cover

end Cert.KernelIdeal.Upd3

end
-- ==== Proof.Net.lean ====
/-
  The whole network as pure functions of its arguments, in both spellings.

  One layer gathers, per edge, the source node's row of `x` and the edge type's row of `r` and multiplies them entry by
  entry (`comp`); forms per-edge messages (`msgRef` or `msgKer`); sums the messages per destination node (`sumAt`, a
  scatter-add into zeros); and updates the nodes (`updRef` or `updKer`). The relation table is multiplied by a square
  matrix per layer (`relStep`). The network is two layers followed by three row selections (`pick`, `pickRel`).
-/
import proofs.«109088_j4398046511943_1_alg».proof.Proof.Layer

noncomputable section

namespace Cert.Layer

open Idealize.ShloMosaic Idealize.ShloMosaic.ValueIdx Cert.ReferenceIdeal Cert.ReferenceIdeal.Facts₀

variable [Cert.ReferenceIdeal.Facts₀]

/-- An array of 32-bit integers. -/
abbrev I32 (s : Shape) : Type := (⟨s, .i32⟩ : BufTy).Contents (Elt Ideal)

/-- Per edge, the node row to read: a negative index counts from the end (100000 is added), as a column. -/
def nodeRows (x0 : I32 S640000) : I32 S640000x1 :=
  broadcastInDim S640000x1 ![0] bcast_S640000_S640000x1_0
    (select (cmpi .slt x0 (broadcastInDim S640000 ![] bcast_S_S640000 (constantI S_ 32 0#32)))
      (addi x0 (broadcastInDim S640000 ![] bcast_S_S640000 (constantI S_ 32 100000#32))) x0)

/-- Per edge, the relation row to read: a negative index counts from the end (400 is added), as a column. -/
def relRows (x2 : I32 S640000) : I32 S640000x1 :=
  broadcastInDim S640000x1 ![0] bcast_S640000_S640000x1_0
    (select (cmpi .slt x2 (broadcastInDim S640000 ![] bcast_S_S640000 (constantI S_ 32 0#32)))
      (addi x2 (broadcastInDim S640000 ![] bcast_S_S640000 (constantI S_ 32 400#32))) x2)

/-- The per-edge composition: the source node's row times the edge type's row, entry by entry. -/
def comp (x : FVec Ideal S100000x200 .f32) (r : FVec Ideal S400x200 .f32) (x0 x2 : I32 S640000) : FVec Ideal S640000x200 .f32 :=
  mulf (Host.gather gather_S100000x200_S640000x1_S640000x200_1_0_n_n_0_1_1200 x (nodeRows x0))
    (Host.gather gather_S400x200_S640000x1_S640000x200_1_0_n_n_0_1_1200 r (relRows x2))

/-- The messages summed per destination node: a scatter-add of the message rows into a zero matrix. -/
def sumAt (x1 : I32 S640000) (msg : FVec Ideal S640000x200 .f32) : FVec Ideal S100000x200 .f32 :=
  Host.scatterAdd scatter_S100000x200_S640000x1_S640000x200_1_0_0_1
    (broadcastInDim S100000x200 ![] bcast_S_S100000x200 (constant S_ .f32 0x00000000#32))
    (broadcastInDim S640000x1 ![0] bcast_S640000_S640000x1_0 x1) msg

/-- The relation table times a layer's square matrix. -/
def relStep (r : FVec Ideal S400x200 .f32) (w : FVec Ideal S200x200 .f32) : FVec Ideal S400x200 .f32 :=
  Host.dotGeneral dot_S400x200_S200x200_S400x200_1_0_0_1_n_n none r w

/-- One layer's node features, reference spelling. -/
def layerRef (x : FVec Ideal S100000x200 .f32) (r : FVec Ideal S400x200 .f32) (x0 x1 x2 : I32 S640000)
    (en : FVec Ideal S640000 .f32) (win wout : FVec Ideal S200x200 .f32) (lr : FVec Ideal S1x200 .f32)
    (wl : FVec Ideal S200x200 .f32) (b : FVec Ideal S200 .f32) : FVec Ideal S100000x200 .f32 :=
  updRef (sumAt x1 (msgRef (comp x r x0 x2) en win wout)) x lr wl b

/-- One layer's node features, kernel spelling (the bias given as a row). -/
def layerKer (x : FVec Ideal S100000x200 .f32) (r : FVec Ideal S400x200 .f32) (x0 x1 x2 : I32 S640000)
    (en : FVec Ideal S640000 .f32) (win wout : FVec Ideal S200x200 .f32) (lr : FVec Ideal S1x200 .f32)
    (wl : FVec Ideal S200x200 .f32) (b2 : FVec Ideal S1x200 .f32) : FVec Ideal S100000x200 .f32 :=
  updKer (sumAt x1 (msgKer (comp x r x0 x2) en win wout)) x lr wl b2

/-- The selected node rows: a negative index counts from the end. -/
def pick (x : FVec Ideal S100000x200 .f32) (x4 : I32 S4096) : FVec Ideal S4096x200 .f32 :=
  Host.gather gather_S100000x200_S4096x1_S4096x200_1_0_n_n_0_1_1200 x
    (broadcastInDim S4096x1 ![0] bcast_S4096_S4096x1_0
      (select (cmpi .slt x4 (broadcastInDim S4096 ![] bcast_S_S4096 (constantI S_ 32 0#32)))
        (addi x4 (broadcastInDim S4096 ![] bcast_S_S4096 (constantI S_ 32 100000#32))) x4))

/-- The selected relation rows: a negative index counts from the end. -/
def pickRel (r : FVec Ideal S400x200 .f32) (x5 : I32 S4096) : FVec Ideal S4096x200 .f32 :=
  Host.gather gather_S400x200_S4096x1_S4096x200_1_0_n_n_0_1_1200 r
    (broadcastInDim S4096x1 ![0] bcast_S4096_S4096x1_0
      (select (cmpi .slt x5 (broadcastInDim S4096 ![] bcast_S_S4096 (constantI S_ 32 0#32)))
        (addi x5 (broadcastInDim S4096 ![] bcast_S_S4096 (constantI S_ 32 400#32))) x5))

end Cert.Layer

end
-- ==== Proof.Stages.lean ====
/-
  The contents of the program's buffers at each boundary between its segments, as functions of the arguments.

  The program's nine segments alternate stretches of host operations with the four kernel regions. Walking the fold of
  buffer contents from the launch: the first stretch gathers and scales the compositions of layer 1; region 0 turns them
  into messages; the next stretch sums the messages per node and reshapes the bias; region 1 updates the nodes; the
  third stretch multiplies the relation table and prepares layer 2's compositions from the updated nodes and relations;
  regions 2 and 3 repeat the layer; the last stretch multiplies the relation table again and selects the requested
  rows. Buffers a segment does not write keep their contents across it, so every argument is read at its launch value.
-/
import proofs.«109088_j4398046511943_1_alg».proof.Proof.KRun
import proofs.«109088_j4398046511943_1_alg».proof.Proof.Msg0
import proofs.«109088_j4398046511943_1_alg».proof.Proof.Upd1
import proofs.«109088_j4398046511943_1_alg».proof.Proof.Msg2
import proofs.«109088_j4398046511943_1_alg».proof.Proof.Upd3
import proofs.«109088_j4398046511943_1_alg».proof.Proof.Net
import proofs.«109088_j4398046511943_1_alg».proof.Proof.Gen.ReferenceIdeal
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.Layer

variable (m : (ℓ : Loc nD τ sig) → Buf (Elt Ideal) ℓ) (ρ : Dev nD → PrngReg) (c : Dev nD)

/-- A bias vector as a one-row matrix. -/
def biasRow (b : FVec Ideal S200 .f32) : FVec Ideal S1x200 .f32 := fun i => shapeCast S1x200 b shapeCasts_S200_S1x200 i

/-- The node features after layer 1, kernel spelling. -/
def X1 : FVec Ideal S100000x200 .f32 :=
  layerKer (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg13)) (m ((c : Thread nD τ).loc main_arg11)) (biasRow (m ((c : Thread nD τ).loc main_arg14)))

/-- The relation table after layer 1. -/
def R1 : FVec Ideal S400x200 .f32 := relStep (m ((c : Thread nD τ).loc main_arg8)) (m ((c : Thread nD τ).loc main_arg12))

/-- The node features after layer 2, kernel spelling. -/
def X2 : FVec Ideal S100000x200 .f32 :=
  layerKer (X1 m c) (R1 m c) (m ((c : Thread nD τ).loc main_arg0)) (m ((c : Thread nD τ).loc main_arg1)) (m ((c : Thread nD τ).loc main_arg2)) (m ((c : Thread nD τ).loc main_arg3)) (m ((c : Thread nD τ).loc main_arg15)) (m ((c : Thread nD τ).loc main_arg16)) (m ((c : Thread nD τ).loc main_arg19)) (m ((c : Thread nD τ).loc main_arg17)) (biasRow (m ((c : Thread nD τ).loc main_arg20)))

/-! ## Buffers that pass through a segment unchanged -/

theorem W1_arg0 : W1 m ρ c (Proc.devRef .tc main_arg0) = (m ((c : Thread nD τ).loc main_arg0)) := by
  show StableHlo.after hostOps0 (W0 m ρ c) (Proc.devRef .tc main_arg0) = _
  after_results_simp
theorem W2_arg0 : W2 m ρ c (Proc.devRef .tc main_arg0) = (m ((c : Thread nD τ).loc main_arg0)) :=
  (W2_of_ne m ρ c main_arg0 (by decide)).trans (W1_arg0 m ρ c)
theorem W3_arg0 : W3 m ρ c (Proc.devRef .tc main_arg0) = (m ((c : Thread nD τ).loc main_arg0)) := by
  show StableHlo.after hostOps1 (W2 m ρ c) (Proc.devRef .tc main_arg0) = _
  after_results_simp
  exact W2_arg0 m ρ c
theorem W4_arg0 : W4 m ρ c (Proc.devRef .tc main_arg0) = (m ((c : Thread nD τ).loc main_arg0)) :=
  (W4_of_ne m ρ c main_arg0 (by decide)).trans (W3_arg0 m ρ c)

theorem W1_arg1 : W1 m ρ c (Proc.devRef .tc main_arg1) = (m ((c : Thread nD τ).loc main_arg1)) := by
  show StableHlo.after hostOps0 (W0 m ρ c) (Proc.devRef .tc main_arg1) = _
  after_results_simp
theorem W2_arg1 : W2 m ρ c (Proc.devRef .tc main_arg1) = (m ((c : Thread nD τ).loc main_arg1)) :=
  (W2_of_ne m ρ c main_arg1 (by decide)).trans (W1_arg1 m ρ c)
theorem W3_arg1 : W3 m ρ c (Proc.devRef .tc main_arg1) = (m ((c : Thread nD τ).loc main_arg1)) := by
  show StableHlo.after hostOps1 (W2 m ρ c) (Proc.devRef .tc main_arg1) = _
  after_results_simp
  exact W2_arg1 m ρ c
theorem W4_arg1 : W4 m ρ c (Proc.devRef .tc main_arg1) = (m ((c : Thread nD τ).loc main_arg1)) :=
  (W4_of_ne m ρ c main_arg1 (by decide)).trans (W3_arg1 m ρ c)
theorem W5_arg1 : W5 m ρ c (Proc.devRef .tc main_arg1) = (m ((c : Thread nD τ).loc main_arg1)) := by
  show StableHlo.after hostOps2 (W4 m ρ c) (Proc.devRef .tc main_arg1) = _
  after_results_simp
  exact W4_arg1 m ρ c
theorem W6_arg1 : W6 m ρ c (Proc.devRef .tc main_arg1) = (m ((c : Thread nD τ).loc main_arg1)) :=
  (W6_of_ne m ρ c main_arg1 (by decide)).trans (W5_arg1 m ρ c)

theorem W1_arg2 : W1 m ρ c (Proc.devRef .tc main_arg2) = (m ((c : Thread nD τ).loc main_arg2)) := by
  show StableHlo.after hostOps0 (W0 m ρ c) (Proc.devRef .tc main_arg2) = _
  after_results_simp
theorem W2_arg2 : W2 m ρ c (Proc.devRef .tc main_arg2) = (m ((c : Thread nD τ).loc main_arg2)) :=
  (W2_of_ne m ρ c main_arg2 (by decide)).trans (W1_arg2 m ρ c)
theorem W3_arg2 : W3 m ρ c (Proc.devRef .tc main_arg2) = (m ((c : Thread nD τ).loc main_arg2)) := by
  show StableHlo.after hostOps1 (W2 m ρ c) (Proc.devRef .tc main_arg2) = _
  after_results_simp
  exact W2_arg2 m ρ c
theorem W4_arg2 : W4 m ρ c (Proc.devRef .tc main_arg2) = (m ((c : Thread nD τ).loc main_arg2)) :=
  (W4_of_ne m ρ c main_arg2 (by decide)).trans (W3_arg2 m ρ c)

theorem W1_arg3 : W1 m ρ c (Proc.devRef .tc main_arg3) = (m ((c : Thread nD τ).loc main_arg3)) := by
  show StableHlo.after hostOps0 (W0 m ρ c) (Proc.devRef .tc main_arg3) = _
  after_results_simp
theorem W2_arg3 : W2 m ρ c (Proc.devRef .tc main_arg3) = (m ((c : Thread nD τ).loc main_arg3)) :=
  (W2_of_ne m ρ c main_arg3 (by decide)).trans (W1_arg3 m ρ c)
theorem W3_arg3 : W3 m ρ c (Proc.devRef .tc main_arg3) = (m ((c : Thread nD τ).loc main_arg3)) := by
  show StableHlo.after hostOps1 (W2 m ρ c) (Proc.devRef .tc main_arg3) = _
  after_results_simp
  exact W2_arg3 m ρ c
theorem W4_arg3 : W4 m ρ c (Proc.devRef .tc main_arg3) = (m ((c : Thread nD τ).loc main_arg3)) :=
  (W4_of_ne m ρ c main_arg3 (by decide)).trans (W3_arg3 m ρ c)

theorem W1_arg4 : W1 m ρ c (Proc.devRef .tc main_arg4) = (m ((c : Thread nD τ).loc main_arg4)) := by
  show StableHlo.after hostOps0 (W0 m ρ c) (Proc.devRef .tc main_arg4) = _
  after_results_simp
theorem W2_arg4 : W2 m ρ c (Proc.devRef .tc main_arg4) = (m ((c : Thread nD τ).loc main_arg4)) :=
  (W2_of_ne m ρ c main_arg4 (by decide)).trans (W1_arg4 m ρ c)
theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W4_arg4 : W4 m ρ c (Proc.devRef .tc main_arg4) = (m ((c : Thread nD τ).loc main_arg4)) :=
  (W4_of_ne m ρ c main_arg4 (by decide)).trans (W3_arg4 m ρ c)
theorem W5_arg4 : W5 m ρ c (Proc.devRef .tc main_arg4) = (m ((c : Thread nD τ).loc main_arg4)) := by
  show StableHlo.after hostOps2 (W4 m ρ c) (Proc.devRef .tc main_arg4) = _
  after_results_simp
  exact W4_arg4 m ρ c
theorem W6_arg4 : W6 m ρ c (Proc.devRef .tc main_arg4) = (m ((c : Thread nD τ).loc main_arg4)) :=
  (W6_of_ne m ρ c main_arg4 (by decide)).trans (W5_arg4 m ρ c)
theorem W7_arg4 : W7 m ρ c (Proc.devRef .tc main_arg4) = (m ((c : Thread nD τ).loc main_arg4)) := by
  show StableHlo.after hostOps3 (W6 m ρ c) (Proc.devRef .tc main_arg4) = _
  after_results_simp
  exact W6_arg4 m ρ c
theorem W8_arg4 : W8 m ρ c (Proc.devRef .tc main_arg4) = (m ((c : Thread nD τ).loc main_arg4)) :=
  (W8_of_ne m ρ c main_arg4 (by decide)).trans (W7_arg4 m ρ c)

theorem W1_arg5 : W1 m ρ c (Proc.devRef .tc main_arg5) = (m ((c : Thread nD τ).loc main_arg5)) := by
  show StableHlo.after hostOps0 (W0 m ρ c) (Proc.devRef .tc main_arg5) = _
  after_results_simp
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) := by
  show StableHlo.after hostOps2 (W4 m ρ c) (Proc.devRef .tc main_arg5) = _
  after_results_simp
  exact W4_arg5 m ρ c
theorem W6_arg5 : W6 m ρ c (Proc.devRef .tc main_arg5) = (m ((c : Thread nD τ).loc main_arg5)) :=
  (W6_of_ne m ρ c main_arg5 (by decide)).trans (W5_arg5 m ρ c)
theorem W7_arg5 : W7 m ρ c (Proc.devRef .tc main_arg5) = (m ((c : Thread nD τ).loc main_arg5)) := by
  show StableHlo.after hostOps3 (W6 m ρ c) (Proc.devRef .tc main_arg5) = _
  after_results_simp
  exact W6_arg5 m ρ c
theorem W8_arg5 : W8 m ρ c (Proc.devRef .tc main_arg5) = (m ((c : Thread nD τ).loc main_arg5)) :=
  (W8_of_ne m ρ c main_arg5 (by decide)).trans (W7_arg5 m ρ c)

theorem W1_arg6 : W1 m ρ c (Proc.devRef .tc main_arg6) = (m ((c : Thread nD τ).loc main_arg6)) := by
  show StableHlo.after hostOps0 (W0 m ρ c) (Proc.devRef .tc main_arg6) = _
  after_results_simp
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) := by
  show StableHlo.after hostOps2 (W4 m ρ c) (Proc.devRef .tc main_arg6) = _
  after_results_simp
  exact W4_arg6 m ρ c
theorem W6_arg6 : W6 m ρ c (Proc.devRef .tc main_arg6) = (m ((c : Thread nD τ).loc main_arg6)) :=
  (W6_of_ne m ρ c main_arg6 (by decide)).trans (W5_arg6 m ρ c)
theorem W7_arg6 : W7 m ρ c (Proc.devRef .tc main_arg6) = (m ((c : Thread nD τ).loc main_arg6)) := by
  show StableHlo.after hostOps3 (W6 m ρ c) (Proc.devRef .tc main_arg6) = _
  after_results_simp
  exact W6_arg6 m ρ c
theorem W8_arg6 : W8 m ρ c (Proc.devRef .tc main_arg6) = (m ((c : Thread nD τ).loc main_arg6)) :=
  (W8_of_ne m ρ c main_arg6 (by decide)).trans (W7_arg6 m ρ c)

theorem W1_arg7 : W1 m ρ c (Proc.devRef .tc main_arg7) = (m ((c : Thread nD τ).loc main_arg7)) := by
  show StableHlo.after hostOps0 (W0 m ρ c) (Proc.devRef .tc main_arg7) = _
  after_results_simp
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c

theorem W1_arg8 : W1 m ρ c (Proc.devRef .tc main_arg8) = (m ((c : Thread nD τ).loc main_arg8)) := by
  show StableHlo.after hostOps0 (W0 m ρ c) (Proc.devRef .tc main_arg8) = _
  after_results_simp
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) := by
  show StableHlo.after hostOps1 (W2 m ρ c) (Proc.devRef .tc main_arg8) = _
  after_results_simp
  exact W2_arg8 m ρ c
theorem W4_arg8 : W4 m ρ c (Proc.devRef .tc main_arg8) = (m ((c : Thread nD τ).loc main_arg8)) :=
  (W4_of_ne m ρ c main_arg8 (by decide)).trans (W3_arg8 m ρ c)

theorem W1_arg9 : W1 m ρ c (Proc.devRef .tc main_arg9) = (m ((c : Thread nD τ).loc main_arg9)) := by
  show StableHlo.after hostOps0 (W0 m ρ c) (Proc.devRef .tc main_arg9) = _
  after_results_simp

theorem W1_arg10 : W1 m ρ c (Proc.devRef .tc main_arg10) = (m ((c : Thread nD τ).loc main_arg10)) := by
  show StableHlo.after hostOps0 (W0 m ρ c) (Proc.devRef .tc main_arg10) = _
  after_results_simp

theorem W1_arg11 : W1 m ρ c (Proc.devRef .tc main_arg11) = (m ((c : Thread nD τ).loc main_arg11)) := by
  show StableHlo.after hostOps0 (W0 m ρ c) (Proc.devRef .tc main_arg11) = _
  after_results_simp
theorem W2_arg11 : W2 m ρ c (Proc.devRef .tc main_arg11) = (m ((c : Thread nD τ).loc main_arg11)) :=
  (W2_of_ne m ρ c main_arg11 (by decide)).trans (W1_arg11 m ρ c)
theorem W3_arg11 : W3 m ρ c (Proc.devRef .tc main_arg11) = (m ((c : Thread nD τ).loc main_arg11)) := by
  show StableHlo.after hostOps1 (W2 m ρ c) (Proc.devRef .tc main_arg11) = _
  after_results_simp
  exact W2_arg11 m ρ c

theorem W1_arg12 : W1 m ρ c (Proc.devRef .tc main_arg12) = (m ((c : Thread nD τ).loc main_arg12)) := by
  show StableHlo.after hostOps0 (W0 m ρ c) (Proc.devRef .tc main_arg12) = _
  after_results_simp
theorem W2_arg12 : W2 m ρ c (Proc.devRef .tc main_arg12) = (m ((c : Thread nD τ).loc main_arg12)) :=
  (W2_of_ne m ρ c main_arg12 (by decide)).trans (W1_arg12 m ρ c)
theorem W3_arg12 : W3 m ρ c (Proc.devRef .tc main_arg12) = (m ((c : Thread nD τ).loc main_arg12)) := by
  show StableHlo.after hostOps1 (W2 m ρ c) (Proc.devRef .tc main_arg12) = _
  after_results_simp
  exact W2_arg12 m ρ c
theorem W4_arg12 : W4 m ρ c (Proc.devRef .tc main_arg12) = (m ((c : Thread nD τ).loc main_arg12)) :=
  (W4_of_ne m ρ c main_arg12 (by decide)).trans (W3_arg12 m ρ c)

theorem W1_arg13 : W1 m ρ c (Proc.devRef .tc main_arg13) = (m ((c : Thread nD τ).loc main_arg13)) := by
  show StableHlo.after hostOps0 (W0 m ρ c) (Proc.devRef .tc main_arg13) = _
  after_results_simp
theorem W2_arg13 : W2 m ρ c (Proc.devRef .tc main_arg13) = (m ((c : Thread nD τ).loc main_arg13)) :=
  (W2_of_ne m ρ c main_arg13 (by decide)).trans (W1_arg13 m ρ c)
theorem W3_arg13 : W3 m ρ c (Proc.devRef .tc main_arg13) = (m ((c : Thread nD τ).loc main_arg13)) := by
  show StableHlo.after hostOps1 (W2 m ρ c) (Proc.devRef .tc main_arg13) = _
  after_results_simp
  exact W2_arg13 m ρ c

theorem W1_arg14 : W1 m ρ c (Proc.devRef .tc main_arg14) = (m ((c : Thread nD τ).loc main_arg14)) := by
  show StableHlo.after hostOps0 (W0 m ρ c) (Proc.devRef .tc main_arg14) = _
  after_results_simp
theorem W2_arg14 : W2 m ρ c (Proc.devRef .tc main_arg14) = (m ((c : Thread nD τ).loc main_arg14)) :=
  (W2_of_ne m ρ c main_arg14 (by decide)).trans (W1_arg14 m ρ c)

theorem W1_arg15 : W1 m ρ c (Proc.devRef .tc main_arg15) = (m ((c : Thread nD τ).loc main_arg15)) := by
  show StableHlo.after hostOps0 (W0 m ρ c) (Proc.devRef .tc main_arg15) = _
  after_results_simp
theorem W2_arg15 : W2 m ρ c (Proc.devRef .tc main_arg15) = (m ((c : Thread nD τ).loc main_arg15)) :=
  (W2_of_ne m ρ c main_arg15 (by decide)).trans (W1_arg15 m ρ c)
theorem W3_arg15 : W3 m ρ c (Proc.devRef .tc main_arg15) = (m ((c : Thread nD τ).loc main_arg15)) := by
  show StableHlo.after hostOps1 (W2 m ρ c) (Proc.devRef .tc main_arg15) = _
  after_results_simp
  exact W2_arg15 m ρ c
theorem W4_arg15 : W4 m ρ c (Proc.devRef .tc main_arg15) = (m ((c : Thread nD τ).loc main_arg15)) :=
  (W4_of_ne m ρ c main_arg15 (by decide)).trans (W3_arg15 m ρ c)
theorem W5_arg15 : W5 m ρ c (Proc.devRef .tc main_arg15) = (m ((c : Thread nD τ).loc main_arg15)) := by
  show StableHlo.after hostOps2 (W4 m ρ c) (Proc.devRef .tc main_arg15) = _
  after_results_simp
  exact W4_arg15 m ρ c

theorem W1_arg16 : W1 m ρ c (Proc.devRef .tc main_arg16) = (m ((c : Thread nD τ).loc main_arg16)) := by
  show StableHlo.after hostOps0 (W0 m ρ c) (Proc.devRef .tc main_arg16) = _
  after_results_simp
theorem W2_arg16 : W2 m ρ c (Proc.devRef .tc main_arg16) = (m ((c : Thread nD τ).loc main_arg16)) :=
  (W2_of_ne m ρ c main_arg16 (by decide)).trans (W1_arg16 m ρ c)
theorem W3_arg16 : W3 m ρ c (Proc.devRef .tc main_arg16) = (m ((c : Thread nD τ).loc main_arg16)) := by
  show StableHlo.after hostOps1 (W2 m ρ c) (Proc.devRef .tc main_arg16) = _
  after_results_simp
  exact W2_arg16 m ρ c
theorem W4_arg16 : W4 m ρ c (Proc.devRef .tc main_arg16) = (m ((c : Thread nD τ).loc main_arg16)) :=
  (W4_of_ne m ρ c main_arg16 (by decide)).trans (W3_arg16 m ρ c)
theorem W5_arg16 : W5 m ρ c (Proc.devRef .tc main_arg16) = (m ((c : Thread nD τ).loc main_arg16)) := by
  show StableHlo.after hostOps2 (W4 m ρ c) (Proc.devRef .tc main_arg16) = _
  after_results_simp
  exact W4_arg16 m ρ c

theorem W1_arg17 : W1 m ρ c (Proc.devRef .tc main_arg17) = (m ((c : Thread nD τ).loc main_arg17)) := by
  show StableHlo.after hostOps0 (W0 m ρ c) (Proc.devRef .tc main_arg17) = _
  after_results_simp
theorem W2_arg17 : W2 m ρ c (Proc.devRef .tc main_arg17) = (m ((c : Thread nD τ).loc main_arg17)) :=
  (W2_of_ne m ρ c main_arg17 (by decide)).trans (W1_arg17 m ρ c)
theorem W3_arg17 : W3 m ρ c (Proc.devRef .tc main_arg17) = (m ((c : Thread nD τ).loc main_arg17)) := by
  show StableHlo.after hostOps1 (W2 m ρ c) (Proc.devRef .tc main_arg17) = _
  after_results_simp
  exact W2_arg17 m ρ c
theorem W4_arg17 : W4 m ρ c (Proc.devRef .tc main_arg17) = (m ((c : Thread nD τ).loc main_arg17)) :=
  (W4_of_ne m ρ c main_arg17 (by decide)).trans (W3_arg17 m ρ c)
theorem W5_arg17 : W5 m ρ c (Proc.devRef .tc main_arg17) = (m ((c : Thread nD τ).loc main_arg17)) := by
  show StableHlo.after hostOps2 (W4 m ρ c) (Proc.devRef .tc main_arg17) = _
  after_results_simp
  exact W4_arg17 m ρ c
theorem W6_arg17 : W6 m ρ c (Proc.devRef .tc main_arg17) = (m ((c : Thread nD τ).loc main_arg17)) :=
  (W6_of_ne m ρ c main_arg17 (by decide)).trans (W5_arg17 m ρ c)
theorem W7_arg17 : W7 m ρ c (Proc.devRef .tc main_arg17) = (m ((c : Thread nD τ).loc main_arg17)) := by
  show StableHlo.after hostOps3 (W6 m ρ c) (Proc.devRef .tc main_arg17) = _
  after_results_simp
  exact W6_arg17 m ρ c

theorem W1_arg18 : W1 m ρ c (Proc.devRef .tc main_arg18) = (m ((c : Thread nD τ).loc main_arg18)) := by
  show StableHlo.after hostOps0 (W0 m ρ c) (Proc.devRef .tc main_arg18) = _
  after_results_simp
theorem W2_arg18 : W2 m ρ c (Proc.devRef .tc main_arg18) = (m ((c : Thread nD τ).loc main_arg18)) :=
  (W2_of_ne m ρ c main_arg18 (by decide)).trans (W1_arg18 m ρ c)
theorem W3_arg18 : W3 m ρ c (Proc.devRef .tc main_arg18) = (m ((c : Thread nD τ).loc main_arg18)) := by
  show StableHlo.after hostOps1 (W2 m ρ c) (Proc.devRef .tc main_arg18) = _
  after_results_simp
  exact W2_arg18 m ρ c
theorem W4_arg18 : W4 m ρ c (Proc.devRef .tc main_arg18) = (m ((c : Thread nD τ).loc main_arg18)) :=
  (W4_of_ne m ρ c main_arg18 (by decide)).trans (W3_arg18 m ρ c)
theorem W5_arg18 : W5 m ρ c (Proc.devRef .tc main_arg18) = (m ((c : Thread nD τ).loc main_arg18)) := by
  show StableHlo.after hostOps2 (W4 m ρ c) (Proc.devRef .tc main_arg18) = _
  after_results_simp
  exact W4_arg18 m ρ c
theorem W6_arg18 : W6 m ρ c (Proc.devRef .tc main_arg18) = (m ((c : Thread nD τ).loc main_arg18)) :=
  (W6_of_ne m ρ c main_arg18 (by decide)).trans (W5_arg18 m ρ c)
theorem W7_arg18 : W7 m ρ c (Proc.devRef .tc main_arg18) = (m ((c : Thread nD τ).loc main_arg18)) := by
  show StableHlo.after hostOps3 (W6 m ρ c) (Proc.devRef .tc main_arg18) = _
  after_results_simp
  exact W6_arg18 m ρ c
theorem W8_arg18 : W8 m ρ c (Proc.devRef .tc main_arg18) = (m ((c : Thread nD τ).loc main_arg18)) :=
  (W8_of_ne m ρ c main_arg18 (by decide)).trans (W7_arg18 m ρ c)

theorem W1_arg19 : W1 m ρ c (Proc.devRef .tc main_arg19) = (m ((c : Thread nD τ).loc main_arg19)) := by
  show StableHlo.after hostOps0 (W0 m ρ c) (Proc.devRef .tc main_arg19) = _
  after_results_simp
theorem W2_arg19 : W2 m ρ c (Proc.devRef .tc main_arg19) = (m ((c : Thread nD τ).loc main_arg19)) :=
  (W2_of_ne m ρ c main_arg19 (by decide)).trans (W1_arg19 m ρ c)
theorem W3_arg19 : W3 m ρ c (Proc.devRef .tc main_arg19) = (m ((c : Thread nD τ).loc main_arg19)) := by
  show StableHlo.after hostOps1 (W2 m ρ c) (Proc.devRef .tc main_arg19) = _
  after_results_simp
  exact W2_arg19 m ρ c
theorem W4_arg19 : W4 m ρ c (Proc.devRef .tc main_arg19) = (m ((c : Thread nD τ).loc main_arg19)) :=
  (W4_of_ne m ρ c main_arg19 (by decide)).trans (W3_arg19 m ρ c)
theorem W5_arg19 : W5 m ρ c (Proc.devRef .tc main_arg19) = (m ((c : Thread nD τ).loc main_arg19)) := by
  show StableHlo.after hostOps2 (W4 m ρ c) (Proc.devRef .tc main_arg19) = _
  after_results_simp
  exact W4_arg19 m ρ c
theorem W6_arg19 : W6 m ρ c (Proc.devRef .tc main_arg19) = (m ((c : Thread nD τ).loc main_arg19)) :=
  (W6_of_ne m ρ c main_arg19 (by decide)).trans (W5_arg19 m ρ c)
theorem W7_arg19 : W7 m ρ c (Proc.devRef .tc main_arg19) = (m ((c : Thread nD τ).loc main_arg19)) := by
  show StableHlo.after hostOps3 (W6 m ρ c) (Proc.devRef .tc main_arg19) = _
  after_results_simp
  exact W6_arg19 m ρ c

theorem W1_arg20 : W1 m ρ c (Proc.devRef .tc main_arg20) = (m ((c : Thread nD τ).loc main_arg20)) := by
  show StableHlo.after hostOps0 (W0 m ρ c) (Proc.devRef .tc main_arg20) = _
  after_results_simp
theorem W2_arg20 : W2 m ρ c (Proc.devRef .tc main_arg20) = (m ((c : Thread nD τ).loc main_arg20)) :=
  (W2_of_ne m ρ c main_arg20 (by decide)).trans (W1_arg20 m ρ c)
theorem W3_arg20 : W3 m ρ c (Proc.devRef .tc main_arg20) = (m ((c : Thread nD τ).loc main_arg20)) := by
  show StableHlo.after hostOps1 (W2 m ρ c) (Proc.devRef .tc main_arg20) = _
  after_results_simp
  exact W2_arg20 m ρ c
theorem W4_arg20 : W4 m ρ c (Proc.devRef .tc main_arg20) = (m ((c : Thread nD τ).loc main_arg20)) :=
  (W4_of_ne m ρ c main_arg20 (by decide)).trans (W3_arg20 m ρ c)
theorem W5_arg20 : W5 m ρ c (Proc.devRef .tc main_arg20) = (m ((c : Thread nD τ).loc main_arg20)) := by
  show StableHlo.after hostOps2 (W4 m ρ c) (Proc.devRef .tc main_arg20) = _
  after_results_simp
  exact W4_arg20 m ρ c
theorem W6_arg20 : W6 m ρ c (Proc.devRef .tc main_arg20) = (m ((c : Thread nD τ).loc main_arg20)) :=
  (W6_of_ne m ρ c main_arg20 (by decide)).trans (W5_arg20 m ρ c)

/-! ## Layer 1 -/

/-- Before region 0: the compositions of layer 1 with each row scaled by its edge weight. -/
theorem W1_v17 : W1 m ρ c (Proc.devRef .tc main_v17) = mulf (comp (m ((c : Thread nD τ).loc main_arg7)) (m ((c : Thread nD τ).loc main_arg8)) (m ((c : Thread nD τ).loc main_arg0)) (m ((c : Thread nD τ).loc main_arg2))) (edgeScale (m ((c : Thread nD τ).loc main_arg3))) := by
  show StableHlo.after hostOps0 (W0 m ρ c) (Proc.devRef .tc main_v17) = _
  after_results_simp
  rfl

/-- After region 0: the messages of layer 1. -/
theorem W2_v18 : W2 m ρ c (Proc.devRef .tc main_v18) = (msgKer (comp (m ((c : Thread nD τ).loc main_arg7)) (m ((c : Thread nD τ).loc main_arg8)) (m ((c : Thread nD τ).loc main_arg0)) (m ((c : Thread nD τ).loc main_arg2))) (m ((c : Thread nD τ).loc main_arg3)) (m ((c : Thread nD τ).loc main_arg9)) (m ((c : Thread nD τ).loc main_arg10))) :=
  (W2_arr m ρ c 3).trans ((Msg0.final (V1 m ρ) c).trans (by
    show halfProduct (W1 m ρ c (Proc.devRef .tc main_v17)) (W1 m ρ c (Proc.devRef .tc main_arg9)) (W1 m ρ c (Proc.devRef .tc main_arg10)) = _
    rw [W1_v17 m ρ c, W1_arg9 m ρ c, W1_arg10 m ρ c]
    rfl))

/-- Before region 1: the messages summed per node. -/
theorem W3_v21 : W3 m ρ c (Proc.devRef .tc main_v21) = sumAt (m ((c : Thread nD τ).loc main_arg1)) (msgKer (comp (m ((c : Thread nD τ).loc main_arg7)) (m ((c : Thread nD τ).loc main_arg8)) (m ((c : Thread nD τ).loc main_arg0)) (m ((c : Thread nD τ).loc main_arg2))) (m ((c : Thread nD τ).loc main_arg3)) (m ((c : Thread nD τ).loc main_arg9)) (m ((c : Thread nD τ).loc main_arg10))) := by
  show StableHlo.after hostOps1 (W2 m ρ c) (Proc.devRef .tc main_v21) = _
  after_results_simp
  rw [W2_v18 m ρ c, W2_arg1 m ρ c]
  rfl

/-- Before region 1: the bias of layer 1 as a row. -/
theorem W3_v22 : W3 m ρ c (Proc.devRef .tc main_v22) = biasRow (m ((c : Thread nD τ).loc main_arg14)) := by
  show StableHlo.after hostOps1 (W2 m ρ c) (Proc.devRef .tc main_v22) = _
  after_results_simp
  rw [W2_arg14 m ρ c]
  rfl

/-- After region 1: the node features of layer 1. -/
theorem W4_v23 : W4 m ρ c (Proc.devRef .tc main_v23) = X1 m c :=
  (W4_arr m ρ c 5).trans ((Upd1.final (V3 m ρ) c).trans (by
    show updKer (W3 m ρ c (Proc.devRef .tc main_v21)) (W3 m ρ c (Proc.devRef .tc main_arg7)) (W3 m ρ c (Proc.devRef .tc main_arg13)) (W3 m ρ c (Proc.devRef .tc main_arg11)) (W3 m ρ c (Proc.devRef .tc main_v22)) = _
    rw [W3_v21 m ρ c, W3_arg7 m ρ c, W3_arg13 m ρ c, W3_arg11 m ρ c, W3_v22 m ρ c]
    rfl))

/-! ## Layer 2 -/

/-- Before region 2: the relation table after layer 1. -/
theorem W5_v24 : W5 m ρ c (Proc.devRef .tc main_v24) = R1 m c := by
  show StableHlo.after hostOps2 (W4 m ρ c) (Proc.devRef .tc main_v24) = _
  after_results_simp
  rw [W4_arg8 m ρ c, W4_arg12 m ρ c]
  rfl

/-- Before region 2: the compositions of layer 2, rows scaled. -/
theorem W5_v42 : W5 m ρ c (Proc.devRef .tc main_v42) = mulf (comp (X1 m c) (R1 m c) (m ((c : Thread nD τ).loc main_arg0)) (m ((c : Thread nD τ).loc main_arg2))) (edgeScale (m ((c : Thread nD τ).loc main_arg3))) := by
  show StableHlo.after hostOps2 (W4 m ρ c) (Proc.devRef .tc main_v42) = _
  after_results_simp
  rw [W4_v23 m ρ c, W4_arg0 m ρ c, W4_arg2 m ρ c, W4_arg3 m ρ c, W4_arg8 m ρ c, W4_arg12 m ρ c]
  rfl

/-- The node features of layer 1 stay where they are until region 3 reads them. -/
theorem W5_v23 : W5 m ρ c (Proc.devRef .tc main_v23) = X1 m c := by
  show StableHlo.after hostOps2 (W4 m ρ c) (Proc.devRef .tc main_v23) = _
  after_results_simp
  exact W4_v23 m ρ c

theorem W6_v23 : W6 m ρ c (Proc.devRef .tc main_v23) = X1 m c :=
  (W6_of_ne m ρ c main_v23 (by decide)).trans (W5_v23 m ρ c)

theorem W7_v23 : W7 m ρ c (Proc.devRef .tc main_v23) = X1 m c := by
  show StableHlo.after hostOps3 (W6 m ρ c) (Proc.devRef .tc main_v23) = _
  after_results_simp
  exact W6_v23 m ρ c

/-- The relation table of layer 1 stays where it is until the last stretch reads it. -/
theorem W6_v24 : W6 m ρ c (Proc.devRef .tc main_v24) = R1 m c :=
  (W6_of_ne m ρ c main_v24 (by decide)).trans (W5_v24 m ρ c)

theorem W7_v24 : W7 m ρ c (Proc.devRef .tc main_v24) = R1 m c := by
  show StableHlo.after hostOps3 (W6 m ρ c) (Proc.devRef .tc main_v24) = _
  after_results_simp
  exact W6_v24 m ρ c

theorem W8_v24 : W8 m ρ c (Proc.devRef .tc main_v24) = R1 m c :=
  (W8_of_ne m ρ c main_v24 (by decide)).trans (W7_v24 m ρ c)

/-- After region 2: the messages of layer 2. -/
theorem W6_v43 : W6 m ρ c (Proc.devRef .tc main_v43) = (msgKer (comp (X1 m c) (R1 m c) (m ((c : Thread nD τ).loc main_arg0)) (m ((c : Thread nD τ).loc main_arg2))) (m ((c : Thread nD τ).loc main_arg3)) (m ((c : Thread nD τ).loc main_arg15)) (m ((c : Thread nD τ).loc main_arg16))) :=
  (W6_arr m ρ c 3).trans ((Msg2.final (V5 m ρ) c).trans (by
    show halfProduct (W5 m ρ c (Proc.devRef .tc main_v42)) (W5 m ρ c (Proc.devRef .tc main_arg15)) (W5 m ρ c (Proc.devRef .tc main_arg16)) = _
    rw [W5_v42 m ρ c, W5_arg15 m ρ c, W5_arg16 m ρ c]
    rfl))

/-- Before region 3: the messages summed per node. -/
theorem W7_v46 : W7 m ρ c (Proc.devRef .tc main_v46) = sumAt (m ((c : Thread nD τ).loc main_arg1)) (msgKer (comp (X1 m c) (R1 m c) (m ((c : Thread nD τ).loc main_arg0)) (m ((c : Thread nD τ).loc main_arg2))) (m ((c : Thread nD τ).loc main_arg3)) (m ((c : Thread nD τ).loc main_arg15)) (m ((c : Thread nD τ).loc main_arg16))) := by
  show StableHlo.after hostOps3 (W6 m ρ c) (Proc.devRef .tc main_v46) = _
  after_results_simp
  rw [W6_v43 m ρ c, W6_arg1 m ρ c]
  rfl

/-- Before region 3: the bias of layer 2 as a row. -/
theorem W7_v47 : W7 m ρ c (Proc.devRef .tc main_v47) = biasRow (m ((c : Thread nD τ).loc main_arg20)) := by
  show StableHlo.after hostOps3 (W6 m ρ c) (Proc.devRef .tc main_v47) = _
  after_results_simp
  rw [W6_arg20 m ρ c]
  rfl

/-- After region 3: the node features of layer 2. -/
theorem W8_v48 : W8 m ρ c (Proc.devRef .tc main_v48) = X2 m c :=
  (W8_arr m ρ c 5).trans ((Upd3.final (V7 m ρ) c).trans (by
    show updKer (W7 m ρ c (Proc.devRef .tc main_v46)) (W7 m ρ c (Proc.devRef .tc main_v23)) (W7 m ρ c (Proc.devRef .tc main_arg19)) (W7 m ρ c (Proc.devRef .tc main_arg17)) (W7 m ρ c (Proc.devRef .tc main_v47)) = _
    rw [W7_v46 m ρ c, W7_v23 m ρ c, W7_arg19 m ρ c, W7_arg17 m ρ c, W7_v47 m ρ c]
    rfl))

/-! ## The three results -/

theorem W9_v56 : W9 m ρ c (Proc.devRef .tc main_v56) = pick (X2 m c) (m ((c : Thread nD τ).loc main_arg4)) := by
  show StableHlo.after hostOps4 (W8 m ρ c) (Proc.devRef .tc main_v56) = _
  after_results_simp
  rw [W8_v48 m ρ c, W8_arg4 m ρ c]
  rfl

theorem W9_v63 : W9 m ρ c (Proc.devRef .tc main_v63) = pickRel (relStep (R1 m c) (m ((c : Thread nD τ).loc main_arg18))) (m ((c : Thread nD τ).loc main_arg5)) := by
  show StableHlo.after hostOps4 (W8 m ρ c) (Proc.devRef .tc main_v63) = _
  after_results_simp
  rw [W8_v24 m ρ c, W8_arg18 m ρ c, W8_arg5 m ρ c]
  rfl

theorem W9_v70 : W9 m ρ c (Proc.devRef .tc main_v70) = pick (X2 m c) (m ((c : Thread nD τ).loc main_arg6)) := by
  show StableHlo.after hostOps4 (W8 m ρ c) (Proc.devRef .tc main_v70) = _
  after_results_simp
  rw [W8_v48 m ρ c, W8_arg6 m ρ c]
  rfl

end Cert.KernelIdeal.Whole

end
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.LibMatrixRows.lean ====
/-
  Matrices joined or cut along their ROWS, read at an index written by coordinates, and the coercion of the reals into
  the extended reals through a finite sum.  General lemmas: any element type, any extents.

  * two matrices [a, b] and [c, b] joined along their rows into [n, b], read in the upper and in the lower part;
  * a block of a whole rows starting at row `off` cut out of a matrix [n, b];
  * a finite sum of coerced reals is the coercion of the sum.
-/
import Idealize.ShloMosaic.Lib.Pipeline.Value
import Idealize.ShloMosaic.Lib.ValueIdx
import Idealize.ShloMosaic.PureOps.Ideal

namespace Cert.LibMatrixRows

open Idealize.ShloMosaic Idealize.ShloMosaic.ValueIdx

/-! ## Two matrices joined along their rows -/

section Rows

variable {α : Type}

/-- Two matrices joined along their rows read, in the first a rows, the upper one. -/
theorem concat_rows_upper {a c n b : ℕ} (x₁ : (⟨2, ![a, b]⟩ : Shape).Idx → α) (x₂ : (⟨2, ![c, b]⟩ : Shape).Idx → α)
    (h : Shape.Concatenates [(⟨2, ![a, b]⟩ : Shape), ⟨2, ![c, b]⟩] ⟨2, ![n, b]⟩ (0 : Fin 2)) (p : Fin a) (j : Fin b)
    (e : Fin n) (he : e.val = p.val) :
    concatenate ⟨2, ![n, b]⟩ (0 : Fin 2) [⟨⟨2, ![a, b]⟩, x₁⟩, ⟨⟨2, ![c, b]⟩, x₂⟩] h (ix2 e j) = x₁ (ix2 p j) := by
  refine concatenate_pair_apply_left (0 : Fin 2) x₁ x₂ h (ix2 e j) rfl (ix2 p j) fun ax => ?_
  match ax with
  | ⟨0, _⟩ => exact he.symm
  | ⟨1, _⟩ => rfl

/-- Two matrices joined along their rows read, past the first a rows, the lower one. -/
theorem concat_rows_lower {a c n b : ℕ} (x₁ : (⟨2, ![a, b]⟩ : Shape).Idx → α) (x₂ : (⟨2, ![c, b]⟩ : Shape).Idx → α)
    (h : Shape.Concatenates [(⟨2, ![a, b]⟩ : Shape), ⟨2, ![c, b]⟩] ⟨2, ![n, b]⟩ (0 : Fin 2)) (p : Fin c) (j : Fin b)
    (e : Fin n) (he : e.val = a + p.val) :
    concatenate ⟨2, ![n, b]⟩ (0 : Fin 2) [⟨⟨2, ![a, b]⟩, x₁⟩, ⟨⟨2, ![c, b]⟩, x₂⟩] h (ix2 e j) = x₂ (ix2 p j) := by
  refine concatenate_pair_apply_right (0 : Fin 2) x₁ x₂ h (ix2 e j) rfl rfl (ix2 p j) (fun ax hax => ?_) ?_
  · match ax with
    | ⟨0, _⟩ => exact absurd rfl hax
    | ⟨1, _⟩ => rfl
  · show p.val + a = e.val
    omega

/-- A block of whole rows cut out of a matrix reads, at (p, k), the matrix's entry (off + p, k). -/
theorem slice_rows_apply {n a b off : ℕ} (x : (⟨2, ![n, b]⟩ : Shape).Idx → α)
    (h : (⟨2, ![n, b]⟩ : Shape).Slices ![off, 0] ⟨2, ![a, b]⟩) (p : Fin a) (k : Fin b) (e : Fin n) (he : e.val = off + p.val) :
    extractStridedSlice ⟨2, ![a, b]⟩ ![off, 0] x h (ix2 p k) = x (ix2 e k) := by
  refine extractStridedSlice_apply ![off, 0] x h (ix2 p k) (ix2 e k) fun ax => ?_
  match ax with
  | ⟨0, _⟩ => exact he
  | ⟨1, _⟩ => show k.val = 0 + k.val; omega

end Rows

/-- The coercion of the reals into the extended reals commutes with finite sums. -/
theorem coe_finset_sum {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

end Cert.LibMatrixRows
-- ==== Proof.LayerEq.lean ====
/-
  The two spellings of a graph-convolution layer agree, at the ideal instance.

  * Message step.  At entry (e, j) the kernel's spelling is the sum over k of (comp(e,k) · en(e)) · W(k,j) and the
    reference's is (the sum over k of comp(e,k) · W(k,j)) · en(e), with W the matrix of the half row e lies in.  On
    the extended reals a common factor moves across a finite sum when every term is a real number, which the four
    finiteness hypotheses give.
  * Node update.  Both spellings are tanh ((agg + (Σ_k (x(n,k) · lr(0,k)) · wl(k,j)) · (1/3) + bias(j)) · s) entry by
    entry; the reference's quotient by the literal 3.0 is the product with the real 1/3 on every extended real.
-/
import proofs.«109088_j4398046511943_1_alg».proof.Proof.Layer
import proofs.«109088_j4398046511943_1_alg».proof.Proof.LibPlainDot
import proofs.«109088_j4398046511943_1_alg».proof.Proof.LibMatrixLayout
import proofs.«109088_j4398046511943_1_alg».proof.Proof.LibMatrixRows
import Idealize.ShloMosaic.Lib.Pipeline.Value
import Idealize.ShloMosaic.Lib.ValueIdx
import Idealize.ShloMosaic.PureOps.Ideal.Laws

noncomputable section

namespace Cert.Layer

open Idealize.ShloMosaic Idealize.ShloMosaic.ValueIdx Cert.ReferenceIdeal Cert.ReferenceIdeal.Facts₀ Cert.LibMatrixRows

/-! ## Finite sums of reals inside the extended reals -/

/-- A real factor common to the left operands of a finite sum of products of reals moves out of the sum. -/
theorem sum_scale_left {ι : Type} [Fintype ι] (c w : ι → EReal) (s : EReal) (hc : ∀ k, IsReal (c k)) (hw : ∀ k, IsReal (w k))
    (hs : IsReal s) : ∑ k, (c k * s) * w k = (∑ k, c k * w k) * s := by
  choose c' hc' using hc
  choose w' hw' using hw
  obtain ⟨s', rfl⟩ := hs
  simp only [hc', hw', ← EReal.coe_mul, coe_finset_sum]
  rw [EReal.coe_eq_coe_iff, Finset.sum_mul]
  exact Finset.sum_congr rfl fun k _ => by ring

/-- The pattern of 3.0 denotes the real 3. -/
theorem ofBits_three : Ideal.ofBits .f32 0x40400000#32 = ((3 : ℝ) : EReal) := by
  simp [Ideal.ofBits, Ideal.ieee, -EReal.coe_mul]; norm_num

variable [Cert.ReferenceIdeal.Facts₀]

/-! ## The message step -/

/-- The per-edge weight as a matrix reads, at (e, j), the weight of edge e. -/
theorem edgeScale_apply (en : FVec Ideal S640000 .f32) (e : Fin 640000) (j : Fin 200) :
    edgeScale en (ix2 e j) = en (ix1 e) := by
  unfold edgeScale
  rw [Cert.LibMatrixLayout.bcast_a1_ab_apply, Cert.LibMatrixLayout.bcast_a_a1_apply]

/-- The kernel's messages at entry (e, j). -/
theorem msgKer_apply (comp : FVec Ideal S640000x200 .f32) (en : FVec Ideal S640000 .f32) (win wout : FVec Ideal S200x200 .f32)
    (e : Fin 640000) (j : Fin 200) :
    msgKer comp en win wout (ix2 e j)
      = ∑ k : Fin 200, (comp (ix2 e k) * en (ix1 e)) * (if e.val < 320000 then win (ix2 k j) else wout (ix2 k j)) := by
  show (∑ k : Fin 200, mulf comp (edgeScale en) (ix2 e k) * (if e.val < 320000 then win (ix2 k j) else wout (ix2 k j))) = _
  simp only [mulf_apply, edgeScale_apply]

/-- The reference's messages at entry (e, j), e in the first half. -/
theorem msgRef_apply_lo (comp : FVec Ideal S640000x200 .f32) (en : FVec Ideal S640000 .f32) (win wout : FVec Ideal S200x200 .f32)
    (e : Fin 640000) (j : Fin 200) (he : e.val < 320000) :
    msgRef comp en win wout (ix2 e j) = (∑ k : Fin 200, comp (ix2 e k) * win (ix2 k j)) * en (ix1 e) := by
  unfold msgRef
  rw [mulf_apply, edgeScale_apply, concat_rows_upper _ _ _ (⟨e.val, he⟩ : Fin 320000) j e rfl,
    Cert.PlainDot.dotGeneral_ix2 dot_S320000x200_S200x200_S320000x200_1_0_0_1_n_n rfl]
  congr 1
  refine Finset.sum_congr rfl fun k _ => ?_
  rw [slice_rows_apply comp _ (⟨e.val, he⟩ : Fin 320000) k e (Nat.zero_add _).symm]

/-- The reference's messages at entry (e, j), e in the second half. -/
theorem msgRef_apply_hi (comp : FVec Ideal S640000x200 .f32) (en : FVec Ideal S640000 .f32) (win wout : FVec Ideal S200x200 .f32)
    (e : Fin 640000) (j : Fin 200) (he : ¬ e.val < 320000) :
    msgRef comp en win wout (ix2 e j) = (∑ k : Fin 200, comp (ix2 e k) * wout (ix2 k j)) * en (ix1 e) := by
  have hp : e.val - 320000 < 320000 := by have := e.isLt; omega
  have hv : e.val = 320000 + (⟨e.val - 320000, hp⟩ : Fin 320000).val := by show e.val = 320000 + (e.val - 320000); omega
  unfold msgRef
  rw [mulf_apply, edgeScale_apply, concat_rows_lower _ _ _ (⟨e.val - 320000, hp⟩ : Fin 320000) j e hv,
    Cert.PlainDot.dotGeneral_ix2 dot_S320000x200_S200x200_S320000x200_1_0_0_1_n_n rfl]
  congr 1
  refine Finset.sum_congr rfl fun k _ => ?_
  rw [slice_rows_apply comp _ (⟨e.val - 320000, hp⟩ : Fin 320000) k e hv]

/-- The two spellings of the message step agree on arrays of real numbers. -/
theorem msg_eq (comp : FVec Ideal S640000x200 .f32) (en : FVec Ideal S640000 .f32) (win wout : FVec Ideal S200x200 .f32)
    (hcomp : ∀ i, IsReal (comp i)) (hen : ∀ i, IsReal (en i)) (hwin : ∀ i, IsReal (win i)) (hwout : ∀ i, IsReal (wout i)) :
    msgKer comp en win wout = msgRef comp en win wout := by
  funext i
  obtain ⟨e, j, rfl⟩ : ∃ (p : Fin 640000) (q : Fin 200), i = ix2 p q := ⟨i 0, i 1, eq_ix2 i⟩
  rw [msgKer_apply]
  by_cases he : e.val < 320000
  · rw [msgRef_apply_lo comp en win wout e j he]
    simp only [if_pos he]
    exact sum_scale_left _ _ _ (fun k => hcomp _) (fun k => hwin _) (hen _)
  · rw [msgRef_apply_hi comp en win wout e j he]
    simp only [if_neg he]
    exact sum_scale_left _ _ _ (fun k => hcomp _) (fun k => hwout _) (hen _)

/-! ## The node update -/

/-- The reference's node update at entry (n, j). -/
theorem updRef_apply (agg x : FVec Ideal S100000x200 .f32) (lr : FVec Ideal S1x200 .f32) (wl : FVec Ideal S200x200 .f32)
    (b : FVec Ideal S200 .f32) (n : Fin 100000) (j : Fin 200) :
    updRef agg x lr wl b (ix2 n j)
      = Ideal.tanh ((agg (ix2 n j) + (∑ k : Fin 200, (x (ix2 n k) * lr (ix2 (0 : Fin 1) k)) * wl (ix2 k j)) * ((1 / 3 : ℝ) : EReal)
          + b (ix1 j)) * Ideal.ofBits .f32 0x3F7FFFAC#32) := by
  have hL : ∀ q : Fin 200, mulf x (broadcastInDim S100000x200 ![0, 1] bcast_S1x200_S100000x200_0_1 lr) (ix2 n q)
      = x (ix2 n q) * lr (ix2 (0 : Fin 1) q) := fun q => by
    rw [mulf_apply, Cert.LibMatrixLayout.bcast_1b_ab_apply]
  unfold updRef
  simp only [Host.tanh, Host.divf, Ideal.hostUnary_tanh_def, Ideal.hostDivf_def, mulf_apply, addf_apply]
  rw [Cert.LibMatrixLayout.bcast_scalar_apply, Cert.LibMatrixLayout.bcast_scalar_apply, constant_apply, constant_apply,
    ofBits_three, Ideal.div_coe (by norm_num : (3 : ℝ) ≠ 0),
    Cert.PlainDot.dotGeneral_ix2 dot_S100000x200_S200x200_S100000x200_1_0_0_1_n_n rfl,
    Cert.LibMatrixLayout.bcast_1b_ab_apply, Cert.LibMatrixLayout.bcast_b_1b_apply]
  simp only [hL]

/-- The two spellings of the node update agree. -/
theorem upd_eq (agg x : FVec Ideal S100000x200 .f32) (lr : FVec Ideal S1x200 .f32) (wl : FVec Ideal S200x200 .f32)
    (b : FVec Ideal S200 .f32) (b2 : FVec Ideal S1x200 .f32) (hb : ∀ j : Fin 200, b2 (ix2 (0 : Fin 1) j) = b (ix1 j)) :
    updKer agg x lr wl b2 = updRef agg x lr wl b := by
  funext i
  obtain ⟨n, j, rfl⟩ : ∃ (p : Fin 100000) (q : Fin 200), i = ix2 p q := ⟨i 0, i 1, eq_ix2 i⟩
  rw [updRef_apply, ← hb j]
  rfl

end Cert.Layer

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.Finite.lean ====
/-
  Real-valuedness of the inputs and of the operations a layer is built from.

  An extended real is "real" when it is the image of a real number (neither infinity).  The precondition says that
  every entry of every floating-point argument has absolute value below plus infinity; that makes every entry real.
  Products and finite sums of reals are real, the hyperbolic tangent of anything is real, a gather of whole rows
  only moves entries around, and an entry of a plain matrix product is a finite sum of products.
-/
import proofs.«109088_j4398046511943_1_alg».proof.Defs
import proofs.«109088_j4398046511943_1_alg».proof.Proof.Gen.Pre_finite_inputs
import proofs.«109088_j4398046511943_1_alg».proof.Proof.Layer
import proofs.«109088_j4398046511943_1_alg».proof.Proof.LibRowIndex
import proofs.«109088_j4398046511943_1_alg».proof.Proof.LibPlainDot
import Idealize.ShloMosaic.Lib.ReduceAll
import Idealize.ShloMosaic.Lib.ValueIdx
import Idealize.ShloMosaic.PureOps.Ideal.Laws

noncomputable section

namespace Cert.Layer

open Idealize.ShloMosaic Idealize.ShloMosaic.ValueIdx Cert.ReferenceIdeal Cert.ReferenceIdeal.Facts₀

/-! ## Closure of the real numbers inside the extended reals -/

/-- A real number, seen as an extended real, is real. -/
theorem isReal_coe (r : ℝ) : IsReal (r : EReal) := ⟨r, rfl⟩

/-- The product of two reals is real. -/
theorem isReal_mul {x y : EReal} : IsReal x → IsReal y → IsReal (x * y) := by
  rintro ⟨a, rfl⟩ ⟨b, rfl⟩
  exact ⟨a * b, (EReal.coe_mul a b).symm⟩

/-- The sum of two reals is real. -/
theorem isReal_add {x y : EReal} : IsReal x → IsReal y → IsReal (x + y) := by
  rintro ⟨a, rfl⟩ ⟨b, rfl⟩
  exact ⟨a + b, (EReal.coe_add a b).symm⟩

/-- A finite sum of reals is real. -/
theorem isReal_sum {ι : Type*} (s : Finset ι) (f : ι → EReal) : (∀ i ∈ s, IsReal (f i)) → IsReal (∑ i ∈ s, f i) := by
  classical
  induction s using Finset.induction_on with
  | empty => intro _; exact ⟨0, by simp⟩
  | insert a s ha ih =>
    intro h
    rw [Finset.sum_insert ha]
    exact isReal_add (h a (Finset.mem_insert_self a s)) (ih fun i hi => h i (Finset.mem_insert_of_mem hi))

/-- The hyperbolic tangent of any extended real is real: minus one and one at the infinities. -/
theorem isReal_tanh (x : EReal) : IsReal (Ideal.tanh x) := by
  induction x using EReal.rec with
  | bot => exact ⟨-1, by simp⟩
  | top => exact ⟨1, by simp⟩
  | coe r => exact ⟨Real.tanh r, rfl⟩

/-- The elementwise product of two arrays with real entries has real entries. -/
theorem isReal_mulf (x y : FVec Ideal S640000x200 .f32) : (∀ i, IsReal (x i)) → (∀ i, IsReal (y i)) → ∀ i, IsReal (mulf x y i) :=
  fun hx hy i => isReal_mul (hx i) (hy i)

/-- The kernel's node update is a hyperbolic tangent at every entry, hence real. -/
theorem isReal_updKer (agg x : FVec Ideal S100000x200 .f32) (lr : FVec Ideal S1x200 .f32) (wl : FVec Ideal S200x200 .f32)
    (b2 : FVec Ideal S1x200 .f32) (i : S100000x200.Idx) : IsReal (updKer agg x lr wl b2 i) :=
  isReal_tanh _

/-! ## The precondition: every entry of every floating-point argument is real -/

/-- The pattern `0x7F800000` denotes plus infinity. -/
theorem ofBits_inf : Ideal.ofBits .f32 0x7F800000#32 = ⊤ := by simp [Ideal.ofBits, Ideal.ieee]

/-- An extended real whose absolute value is below plus infinity is real. -/
theorem isReal_of_abs_lt_top (x : EReal) (h : max x (-x) < ⊤) : IsReal x := by
  induction x using EReal.rec with
  | bot => simp at h
  | top => simp at h
  | coe r => exact ⟨r, rfl⟩

/-- One conjunct of the precondition, read back: if "all entries have absolute value below plus infinity" came out
    true, every entry is real. -/
theorem isReal_of_all {s : Shape} {axes : List (Fin s.rank)} (x : FVec Ideal s .f32)
    (bc : Cert.Pre_finite_inputs.S_.BroadcastsInDim s (![] : Fin 0 → Fin s.rank))
    (red : s.ReducesTo axes Cert.Pre_finite_inputs.S_) (hu : 0 < Cert.Pre_finite_inputs.S_.numel)
    (init : IVec Cert.Pre_finite_inputs.S_ 1) (j : Cert.Pre_finite_inputs.S_.Idx)
    (h : Host.reduce IntOp.andi (cmpf .olt (Host.absf x)
        (broadcastInDim s ![] bc (constant (F := Ideal) Cert.Pre_finite_inputs.S_ .f32 0x7F800000#32))) init red hu j = 1#1)
    (i : s.Idx) : IsReal (x i) := by
  haveI : Subsingleton Cert.Pre_finite_inputs.S_.Idx := ⟨fun a b => funext fun d => d.elim0⟩
  have h1 := Host.reduce_andi_all _ init red hu j h i
  have h2 : Ideal.cmp .olt (max (x i) (-(x i))) (Ideal.ofBits .f32 0x7F800000#32) = 1#1 := h1
  rw [ofBits_inf] at h2
  refine isReal_of_abs_lt_top _ ?_
  by_contra hn
  simp [Ideal.cmp, hn] at h2

/-- The precondition makes every entry of each of the fifteen floating-point arguments real. -/
theorem pre_isReal (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i)) := by
  have h0 := congrFun (h c) ValueIdx.ix0
  simp only [Cert.Pre_finite_inputs.fn, Cert.Pre_finite_inputs.fn_part1, Cert.Pre_finite_inputs.fn_part2,
    Cert.Pre_finite_inputs.fn_part3, Cert.Pre_finite_inputs.fn_part4, Idealize.ShloMosaic.andi, IntOp.andi_eq_one] at h0
  obtain ⟨⟨⟨⟨⟨⟨⟨⟨⟨⟨⟨⟨⟨⟨h3, h7⟩, h8⟩, h9⟩, h10⟩, h11⟩, h12⟩, h13⟩, h14⟩, h15⟩, h16⟩, h17⟩, h18⟩, h19⟩, h20⟩ := h0
  exact ⟨isReal_of_all _ _ _ _ _ _ h3,
    isReal_of_all _ _ _ _ _ _ h7,
    isReal_of_all _ _ _ _ _ _ h8,
    isReal_of_all _ _ _ _ _ _ h9,
    isReal_of_all _ _ _ _ _ _ h10,
    isReal_of_all _ _ _ _ _ _ h11,
    isReal_of_all _ _ _ _ _ _ h12,
    isReal_of_all _ _ _ _ _ _ h13,
    isReal_of_all _ _ _ _ _ _ h14,
    isReal_of_all _ _ _ _ _ _ h15,
    isReal_of_all _ _ _ _ _ _ h16,
    isReal_of_all _ _ _ _ _ _ h17,
    isReal_of_all _ _ _ _ _ _ h18,
    isReal_of_all _ _ _ _ _ _ h19,
    isReal_of_all _ _ _ _ _ _ h20⟩

/-! ## Gathers and the matrix product -/

variable [Cert.ReferenceIdeal.Facts₀]

/-- Gathering whole rows of a node matrix with real entries gives real entries. -/
theorem isReal_gather_node (x : FVec Ideal S100000x200 .f32) (idx : (⟨S640000x1, .i32⟩ : BufTy).Contents (Elt Ideal))
    (hx : ∀ j, IsReal (x j)) (i : S640000x200.Idx) :
    IsReal (Host.gather gather_S100000x200_S640000x1_S640000x200_1_0_n_n_0_1_1200 x idx i) := by
  obtain ⟨p, q, rfl⟩ : ∃ (p : Fin 640000) (q : Fin 200), i = ix2 p q := ⟨i 0, i 1, eq_ix2 i⟩
  show IsReal (Host.gather (Cert.Lib.RowIndex.rowGatherDims 100000 200 640000
    gather_S100000x200_S640000x1_S640000x200_1_0_n_n_0_1_1200_wf) x idx (ix2 p q))
  rw [Cert.Lib.RowIndex.rowGather_apply (by norm_num)]
  exact hx _

/-- Gathering whole rows of a relation matrix with real entries gives real entries. -/
theorem isReal_gather_rel (x : FVec Ideal S400x200 .f32) (idx : (⟨S640000x1, .i32⟩ : BufTy).Contents (Elt Ideal))
    (hx : ∀ j, IsReal (x j)) (i : S640000x200.Idx) :
    IsReal (Host.gather gather_S400x200_S640000x1_S640000x200_1_0_n_n_0_1_1200 x idx i) := by
  obtain ⟨p, q, rfl⟩ : ∃ (p : Fin 640000) (q : Fin 200), i = ix2 p q := ⟨i 0, i 1, eq_ix2 i⟩
  show IsReal (Host.gather (Cert.Lib.RowIndex.rowGatherDims 400 200 640000
    gather_S400x200_S640000x1_S640000x200_1_0_n_n_0_1_1200_wf) x idx (ix2 p q))
  rw [Cert.Lib.RowIndex.rowGather_apply (by norm_num)]
  exact hx _

/-- An entry of the relation matrix times a square matrix is a finite sum of products of reals. -/
theorem isReal_dot_rel (l : FVec Ideal S400x200 .f32) (r : FVec Ideal S200x200 .f32) (hl : ∀ i, IsReal (l i))
    (hr : ∀ i, IsReal (r i)) (i : S400x200.Idx) :
    IsReal (Host.dotGeneral dot_S400x200_S200x200_S400x200_1_0_0_1_n_n none l r i) := by
  obtain ⟨p, q, rfl⟩ : ∃ (p : Fin 400) (q : Fin 200), i = ix2 p q := ⟨i 0, i 1, eq_ix2 i⟩
  rw [Cert.PlainDot.dotGeneral_ix2 dot_S400x200_S200x200_S400x200_1_0_0_1_n_n rfl none l r p q]
  exact isReal_sum _ _ fun k _ => isReal_mul (hl _) (hr _)

end Cert.Layer

end
-- ==== Proof.NetEq.lean ====
/-
  The two spellings of a layer agree on real-valued operands, and the values a layer produces are again real.

  `layer_eq`: with real node features, relation rows, edge weights and square matrices, the kernel's layer equals the
  reference's: the message steps agree because a real factor moves across a finite sum of reals (`msg_eq`), and the
  node updates agree with no hypothesis (`upd_eq`). The output of a layer is a hyperbolic tangent, hence real, and the
  relation table times a real matrix stays real: so the second layer's operands are real too.
-/
import proofs.«109088_j4398046511943_1_alg».proof.Proof.Net
import proofs.«109088_j4398046511943_1_alg».proof.Proof.LayerEq
import proofs.«109088_j4398046511943_1_alg».proof.Proof.Finite

noncomputable section

namespace Cert.Layer

open Idealize.ShloMosaic Idealize.ShloMosaic.ValueIdx Cert.ReferenceIdeal Cert.ReferenceIdeal.Facts₀

variable [Cert.ReferenceIdeal.Facts₀]

/-- The composition of real node features with real relation rows is real: every entry is a product of two entries. -/
theorem isReal_comp (x : FVec Ideal S100000x200 .f32) (r : FVec Ideal S400x200 .f32) (x0 x2 : I32 S640000)
    (hx : ∀ i, IsReal (x i)) (hr : ∀ i, IsReal (r i)) : ∀ i, IsReal (comp x r x0 x2 i) :=
  isReal_mulf _ _ (isReal_gather_node x _ hx) (isReal_gather_rel r _ hr)

/-- On real operands the kernel's layer is the reference's layer. -/
theorem layer_eq (x : FVec Ideal S100000x200 .f32) (r : FVec Ideal S400x200 .f32) (x0 x1 x2 : I32 S640000)
    (en : FVec Ideal S640000 .f32) (win wout : FVec Ideal S200x200 .f32) (lr : FVec Ideal S1x200 .f32)
    (wl : FVec Ideal S200x200 .f32) (b : FVec Ideal S200 .f32) (b2 : FVec Ideal S1x200 .f32)
    (hx : ∀ i, IsReal (x i)) (hr : ∀ i, IsReal (r i)) (hen : ∀ i, IsReal (en i))
    (hwin : ∀ i, IsReal (win i)) (hwout : ∀ i, IsReal (wout i))
    (hb : ∀ j : Fin 200, b2 (ix2 (0 : Fin 1) j) = b (ix1 j)) :
    layerKer x r x0 x1 x2 en win wout lr wl b2 = layerRef x r x0 x1 x2 en win wout lr wl b := by
  unfold layerKer layerRef
  rw [msg_eq _ en win wout (isReal_comp x r x0 x2 hx hr) hen hwin hwout]
  exact upd_eq _ x lr wl b b2 hb

/-- A layer's node features are real whatever its operands: each is a hyperbolic tangent. -/
theorem isReal_layerKer (x : FVec Ideal S100000x200 .f32) (r : FVec Ideal S400x200 .f32) (x0 x1 x2 : I32 S640000)
    (en : FVec Ideal S640000 .f32) (win wout : FVec Ideal S200x200 .f32) (lr : FVec Ideal S1x200 .f32)
    (wl : FVec Ideal S200x200 .f32) (b2 : FVec Ideal S1x200 .f32) : ∀ i, IsReal (layerKer x r x0 x1 x2 en win wout lr wl b2 i) :=
  fun i => isReal_updKer _ _ _ _ _ i

/-- The relation table times a real matrix is real when the table is. -/
theorem isReal_relStep (r : FVec Ideal S400x200 .f32) (w : FVec Ideal S200x200 .f32) (hr : ∀ i, IsReal (r i))
    (hw : ∀ i, IsReal (w i)) : ∀ i, IsReal (relStep r w i) :=
  fun i => isReal_dot_rel r w hr hw i

end Cert.Layer

end
-- ==== Proof.Bridge.lean ====
/-
  The kernel's network equals the reference's network on arguments the precondition admits.

  The precondition makes every entry of every floating-point argument a real number. Layer 1's operands are arguments,
  so its two spellings agree (`Cert.Layer.layer_eq`). Layer 2's operands are layer 1's node features — hyperbolic
  tangents, hence real — and layer 1's relation table — finite sums of products of reals —, so its two spellings agree
  too. The bias row the kernel is handed is the bias vector read as a one-row matrix.
-/
import proofs.«109088_j4398046511943_1_alg».proof.Proof.Stages
import proofs.«109088_j4398046511943_1_alg».proof.Proof.NetEq

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.Layer

/-- The bias row's entry `j` is the bias vector's entry `j`. -/
theorem biasRow_apply (b : FVec Ideal S200 .f32) (j : Fin 200) : biasRow b (ix2 (0 : Fin 1) j) = b (ix1 j) :=
  shapeCast_apply b shapeCasts_S200_S1x200 _ _ (by
    rw [Shape.rowMajor_val_two, Shape.rowMajor_val_one]
    show j.val = 0 * 200 + j.val
    omega)

variable (m : (ℓ : Loc nD τ sig) → Buf (Elt Ideal) ℓ) (c : Dev nD)

/-- Layer 1: the kernel's node features are the reference's. -/
theorem X1_eq (hpre : Cert.Pre_KernelIdeal m) :
    X1 m c = layerRef (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg13)) (m ((c : Thread nD τ).loc main_arg11)) (m ((c : Thread nD τ).loc main_arg14)) := by
  obtain ⟨h3, h7, h8, h9, h10, h11, h12, h13, h14, h15, h16, h17, h18, h19, h20⟩ := pre_isReal m hpre c
  exact layer_eq _ _ _ _ _ _ _ _ _ _ _ _ h7 h8 h3 h9 h10 (biasRow_apply _)

/-- Layer 2: the kernel's node features are the reference's, computed from layer 1's. -/
theorem X2_eq (hpre : Cert.Pre_KernelIdeal m) :
    X2 m c = layerRef
      (layerRef (m ((c : Thread nD τ).loc main_arg7)) (m ((c : Thread nD τ).loc main_arg8)) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg13)) (m ((c : Thread nD τ).loc main_arg11)) (m ((c : Thread nD τ).loc main_arg14)))
      (relStep (m ((c : Thread nD τ).loc main_arg8)) (m ((c : Thread nD τ).loc main_arg12))) (m ((c : Thread nD τ).loc main_arg0)) (m ((c : Thread nD τ).loc main_arg1)) (m ((c : Thread nD τ).loc main_arg2)) (m ((c : Thread nD τ).loc main_arg3)) (m ((c : Thread nD τ).loc main_arg15)) (m ((c : Thread nD τ).loc main_arg16)) (m ((c : Thread nD τ).loc main_arg19)) (m ((c : Thread nD τ).loc main_arg17)) (m ((c : Thread nD τ).loc main_arg20)) := by
  obtain ⟨h3, h7, h8, h9, h10, h11, h12, h13, h14, h15, h16, h17, h18, h19, h20⟩ := pre_isReal m hpre c
  rw [← X1_eq m c hpre]
  exact layer_eq _ _ _ _ _ _ _ _ _ _ _ _ (isReal_layerKer _ _ _ _ _ _ _ _ _ _ _) (isReal_relStep _ _ h8 h12) h3 h15 h16 (biasRow_apply _)

end Cert.KernelIdeal.Whole

end
-- ==== Proof.RefVal.lean ====
/-
  The reference program's stages as the network's functions.

  Read one operation at a time, the reference computes: the node features of layer 1 (`layerRef` of the arguments), the
  relation table of layer 1 (`relStep`), the node features of layer 2 (`layerRef` of layer 1's features and relations),
  the relation table of layer 2, and three row selections. Each equation holds by unfolding the stages.
-/
import proofs.«109088_j4398046511943_1_alg».proof.Proof.Gen.ReferenceIdeal.Read
import proofs.«109088_j4398046511943_1_alg».proof.Proof.Net

set_option maxRecDepth 16384

noncomputable section

namespace Cert.ReferenceIdeal.RefValue

open Idealize.ShloMosaic Cert.ReferenceIdeal Cert.ReferenceIdeal.Gen Cert.ReferenceIdeal.Read Cert.Layer

variable (x0 x1 x2 : (⟨S640000, .i32⟩ : BufTy).Contents (Elt Ideal)) (x3 : (⟨S640000, .f32⟩ : BufTy).Contents (Elt Ideal)) (x4 x5 x6 : (⟨S4096, .i32⟩ : BufTy).Contents (Elt Ideal)) (x7 : (⟨S100000x200, .f32⟩ : BufTy).Contents (Elt Ideal)) (x8 : (⟨S400x200, .f32⟩ : BufTy).Contents (Elt Ideal)) (x9 x10 x11 x12 : (⟨S200x200, .f32⟩ : BufTy).Contents (Elt Ideal)) (x13 : (⟨S1x200, .f32⟩ : BufTy).Contents (Elt Ideal)) (x14 : (⟨S200, .f32⟩ : BufTy).Contents (Elt Ideal)) (x15 x16 x17 x18 : (⟨S200x200, .f32⟩ : BufTy).Contents (Elt Ideal)) (x19 : (⟨S1x200, .f32⟩ : BufTy).Contents (Elt Ideal)) (x20 : (⟨S200, .f32⟩ : BufTy).Contents (Elt Ideal))

/-- Layer 1's node features. -/
theorem layer1 : val_main_v37 (F := Ideal) x0 x1 x2 x3 x7 x8 x9 x10 x11 x13 x14 = layerRef x7 x8 x0 x1 x2 x3 x9 x10 x13 x11 x14 := rfl

/-- Layer 1's relation table. -/
theorem rel1 : val_main_v38 (F := Ideal) x8 x12 = relStep x8 x12 := rfl

/-- Layer 2's node features, from layer 1's. -/
theorem layer2 : val_main_v76 (F := Ideal) x0 x1 x2 x3 x7 x8 x9 x10 x11 x12 x13 x14 x15 x16 x17 x19 x20
    = layerRef (val_main_v37 (F := Ideal) x0 x1 x2 x3 x7 x8 x9 x10 x11 x13 x14) (val_main_v38 (F := Ideal) x8 x12) x0 x1 x2 x3 x15 x16 x19 x17 x20 := rfl

/-- The first result: the selected rows of layer 2's node features. -/
theorem out0 : val_main_v84 (F := Ideal) x0 x1 x2 x3 x4 x7 x8 x9 x10 x11 x12 x13 x14 x15 x16 x17 x19 x20
    = pick (val_main_v76 (F := Ideal) x0 x1 x2 x3 x7 x8 x9 x10 x11 x12 x13 x14 x15 x16 x17 x19 x20) x4 := rfl

/-- The second result: the selected rows of layer 2's relation table. -/
theorem out1 : val_main_v91 (F := Ideal) x5 x8 x12 x18 = pickRel (relStep (relStep x8 x12) x18) x5 := rfl

/-- The third result: the selected rows of layer 2's node features. -/
theorem out2 : val_main_v98 (F := Ideal) x0 x1 x2 x3 x6 x7 x8 x9 x10 x11 x12 x13 x14 x15 x16 x17 x19 x20
    = pick (val_main_v76 (F := Ideal) x0 x1 x2 x3 x7 x8 x9 x10 x11 x12 x13 x14 x15 x16 x17 x19 x20) x6 := rfl

end Cert.ReferenceIdeal.RefValue

end
-- ==== Proof.lean ====
/-
  The certificate of a two-layer graph convolution with relation-composed messages, computed by four kernel regions
  among host gathers and scatter-adds, against its plain reference.

  Both programs gather, per edge, a node row and a relation row and multiply them; turn the products into messages by a
  200 × 200 matrix chosen by the edge's half; sum the messages per destination node; and update every node by
  `tanh ((agg + ((x · lr) W) / 3 + b) · s)`; twice; then select rows. They differ in two places. The kernel scales each
  composition row by its edge weight BEFORE the matrix product, the reference scales the product's row AFTER: equal on the
  extended reals because every operand is a real number — the arguments by the precondition, layer 1's outputs because a
  hyperbolic tangent is real and a finite sum of products of reals is real. And the kernel multiplies by the named third,
  which at the ideal instance is the rational 1/3, where the reference divides by the literal 3.

  The three frames: the two kernel programs' are the generated frame certificates; the reference's is its generated run
  with the results dropped. The idealization's two ledger entries are the named third, twice. The value claim: the
  kernel's run with its results named (the generated frame's launch, re-posted with the result buffers), each result read
  back through the program's segments to the network's function of the arguments, the reference's generated run read one
  operation at a time to the same function.
-/
import proofs.«109088_j4398046511943_1_alg».proof.Defs
import proofs.«109088_j4398046511943_1_alg».proof.Proof.Gen.Kernel
import proofs.«109088_j4398046511943_1_alg».proof.Proof.Gen.Kernel.Skeleton
import proofs.«109088_j4398046511943_1_alg».proof.Proof.Gen.Kernel.Launch
import proofs.«109088_j4398046511943_1_alg».proof.Proof.Gen.Kernel.Points
import proofs.«109088_j4398046511943_1_alg».proof.Proof.Gen.Kernel.Frame
import proofs.«109088_j4398046511943_1_alg».proof.Proof.Gen.KernelIdeal
import proofs.«109088_j4398046511943_1_alg».proof.Proof.Gen.KernelIdeal.Skeleton
import proofs.«109088_j4398046511943_1_alg».proof.Proof.Gen.KernelIdeal.Launch
import proofs.«109088_j4398046511943_1_alg».proof.Proof.Gen.KernelIdeal.Points
import proofs.«109088_j4398046511943_1_alg».proof.Proof.Gen.KernelIdeal.Frame
import proofs.«109088_j4398046511943_1_alg».proof.Proof.Gen.ReferenceIdeal
import proofs.«109088_j4398046511943_1_alg».proof.Proof.Gen.Pre_finite_inputs
import proofs.«109088_j4398046511943_1_alg».proof.Proof.Gen.ReferenceIdeal.Run
import proofs.«109088_j4398046511943_1_alg».proof.Proof.Gen.ReferenceIdeal.Read
import proofs.«109088_j4398046511943_1_alg».proof.Proof.Bridge
import proofs.«109088_j4398046511943_1_alg».proof.Proof.RefVal
import Idealize.ShloMosaic.Adequacy
import Idealize.ShloMosaic.Init

set_option maxRecDepth 16384

noncomputable section

namespace Cert.Proof

open Idealize.ShloMosaic Idealize.ShloMosaic.TcCoe Idealize.SL.Sem Cert.Layer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The ledger's two entries, the same one twice: the table gives the named third the value 1/3, and the printed constant
    is that value at the ideal instance. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- Both programs end with the selected rows of the same network of the arguments. -/
theorem algebraic : Cert.algebraic_KernelIdeal_ReferenceIdeal := by
  intro m ρ m' ρ' hpre hagree
  refine ⟨fun c => pick (Cert.KernelIdeal.Whole.X2 m c) (m ((c.tc : Thread Cert.KernelIdeal.nD Cert.KernelIdeal.τ).loc Cert.KernelIdeal.main_arg4)),
    fun c => pickRel (relStep (Cert.KernelIdeal.Whole.R1 m c) (m ((c.tc : Thread Cert.KernelIdeal.nD Cert.KernelIdeal.τ).loc Cert.KernelIdeal.main_arg18))) (m ((c.tc : Thread Cert.KernelIdeal.nD Cert.KernelIdeal.τ).loc Cert.KernelIdeal.main_arg5)),
    fun c => pick (Cert.KernelIdeal.Whole.X2 m c) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Whole.run_results (F := Ideal) m ρ)
    obtain ⟨h0, h1, h2, hargs⟩ := h c
    exact ⟨h0.trans (Cert.KernelIdeal.Whole.W9_v56 m ρ c), h1.trans (Cert.KernelIdeal.Whole.W9_v63 m ρ c),
      h2.trans (Cert.KernelIdeal.Whole.W9_v70 m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16, a17, a18, a19, a20⟩ := hagree c
    refine ⟨h0.trans ?_, h1.trans ?_, h2.trans ?_, hargs⟩
    · show _ = pick (Cert.KernelIdeal.Whole.X2 m c) _
      rw [Cert.ReferenceIdeal.Read.val_main_v84_eq, a0, a1, a2, a3, a4, a7, a8, a9, a10, a11, a12, a13, a14, a15, a16, a17, a19, a20,
        Cert.ReferenceIdeal.RefValue.out0, Cert.ReferenceIdeal.RefValue.layer2, Cert.ReferenceIdeal.RefValue.layer1,
        Cert.ReferenceIdeal.RefValue.rel1, Cert.KernelIdeal.Whole.X2_eq m c hpre]
    · rw [a5, a8, a12, a18]
      rfl
    · show _ = pick (Cert.KernelIdeal.Whole.X2 m c) _
      rw [Cert.ReferenceIdeal.Read.val_main_v98_eq, a0, a1, a2, a3, a6, a7, a8, a9, a10, a11, a12, a13, a14, a15, a16, a17, a19, a20,
        Cert.ReferenceIdeal.RefValue.out2, Cert.ReferenceIdeal.RefValue.layer2, Cert.ReferenceIdeal.RefValue.layer1,
        Cert.ReferenceIdeal.RefValue.rel1, Cert.KernelIdeal.Whole.X2_eq m c hpre]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
